-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x2048x768 .f32) (main_arg1 : FVec F S2304x768 .f32) (main_arg2 : FVec F S768x768 .f32) (main_arg3 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S1x768 : Shape := ⟨2, ![1, 768]⟩
abbrev S1x2048x768 : Shape := ⟨3, ![1, 2048, 768]⟩
abbrev S1x256x768 : Shape := ⟨3, ![1, 256, 768]⟩
abbrev S2048x768 : Shape := ⟨2, ![2048, 768]⟩
abbrev S256x768 : Shape := ⟨2, ![256, 768]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 16
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768x768, .f32⟩
  | .hbm, ⟨6, _⟩ => ⟨S768x768, .bf16⟩
  | .hbm, ⟨7, _⟩ => ⟨S768x768, .f32⟩
  | .hbm, ⟨8, _⟩ => ⟨S768x768, .f32⟩
  | .hbm, ⟨9, _⟩ => ⟨S768x768, .bf16⟩
  | .hbm, ⟨10, _⟩ => ⟨S768x768, .f32⟩
  | .hbm, ⟨11, _⟩ => ⟨S768x768, .f32⟩
  | .hbm, ⟨12, _⟩ => ⟨S768x768, .bf16⟩
  | .hbm, ⟨13, _⟩ => ⟨S768x768, .f32⟩
  | .hbm, ⟨14, _⟩ => ⟨S768x768, .bf16⟩
  | .hbm, ⟨15, _⟩ => ⟨S1x768, .f32⟩
  | .hbm, ⟨16, _⟩ => ⟨S4x2048x768, .f32⟩
  | .hbm, ⟨17, _⟩ => ⟨S4x2048x768, .f32⟩
  | .hbm, ⟨18, _⟩ => ⟨S4x2048x768, .f32⟩
  | .hbm, ⟨19, _⟩ => ⟨S4x2048x768, .f32⟩
  | .local _ .vmem, ⟨0, _⟩ => ⟨S1x2048x768, .f32⟩
  | .local _ .vmem, ⟨1, _⟩ => ⟨S768x768, .bf16⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S1x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S2048x768, .f32⟩
  | .local _ .vmem, ⟨15, _⟩ => ⟨S2048x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_120 : BitVec 32 := 0#32
  let c256_i32_121 : BitVec 32 := 256#32
  let v267 : BitVec 32 := Scalar.muli c0_i32_120 c256_i32_121
  v267
def k0_off1 (c0_i32_120 : BitVec 32) : Fin 3 → Nat :=
  let c0_122 : Index := 0#32
  let c256_i32_121 : BitVec 32 := 256#32
  let v267 : BitVec 32 := Scalar.muli c0_i32_120 c256_i32_121
  let v268 : BitVec 32 := v267
  let v269 : Index := Scalar.indexCast v268
  let c0_123 : Index := 0#32
  ![0, v269.toNat, 0]
def k0_off2 (c0_i32_120 : BitVec 32) : Fin 2 → Nat :=
  let c256_i32_121 : BitVec 32 := 256#32
  let v267 : BitVec 32 := Scalar.muli c0_i32_120 c256_i32_121
  let v268 : BitVec 32 := v267
  let v276 : Index := Scalar.indexCast v268
  let c0_127 : Index := 0#32
  ![v276.toNat, 0]
def k0_mult2 : BitVec 32 :=
  let c1_i32 : BitVec 32 := 1#32
  let c256_i32_132 : BitVec 32 := 256#32
  let v287 : BitVec 32 := Scalar.muli c1_i32 c256_i32_132
  v287
def k0_mult3 : BitVec 32 :=
  let c2_i32 : BitVec 32 := 2#32
  let c256_i32_143 : BitVec 32 := 256#32
  let v307 : BitVec 32 := Scalar.muli c2_i32 c256_i32_143
  v307
def k0_mult4 : BitVec 32 :=
  let c3_i32 : BitVec 32 := 3#32
  let c256_i32_154 : BitVec 32 := 256#32
  let v327 : BitVec 32 := Scalar.muli c3_i32 c256_i32_154
  v327
def k0_mult5 : BitVec 32 :=
  let c4_i32 : BitVec 32 := 4#32
  let c256_i32_165 : BitVec 32 := 256#32
  let v347 : BitVec 32 := Scalar.muli c4_i32 c256_i32_165
  v347
def k0_mult6 : BitVec 32 :=
  let c5_i32 : BitVec 32 := 5#32
  let c256_i32_176 : BitVec 32 := 256#32
  let v367 : BitVec 32 := Scalar.muli c5_i32 c256_i32_176
  v367
def k0_mult7 : BitVec 32 :=
  let c6_i32 : BitVec 32 := 6#32
  let c256_i32_187 : BitVec 32 := 256#32
  let v387 : BitVec 32 := Scalar.muli c6_i32 c256_i32_187
  v387
def k0_mult8 : BitVec 32 :=
  let c7_i32 : BitVec 32 := 7#32
  let c256_i32_198 : BitVec 32 := 256#32
  let v407 : BitVec 32 := Scalar.muli c7_i32 c256_i32_198
  v407
def k0_mult9 (i : grid0.Coords) : BitVec 32 :=
  let arg1 : BitVec 32 := BitVec.ofNat 32 (i 1).val
  let c256_i32 : BitVec 32 := 256#32
  let v3 : BitVec 32 := Scalar.muli arg1 c256_i32
  v3
def k0_off3 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def k0_off4 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v257 : Index := Scalar.indexCast v4
  let c0_112 : Index := 0#32
  ![v257.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S2304x768_S768x768_0_0 : S2304x768.Slices ![0, 0] S768x768
  transposes_S768x768_S768x768_1_0 : S768x768.Transposes [1, 0] S768x768
  bitsLt_bf16_f32 : FTy.bits .bf16 < FTy.bits .f32
  slices_S2304x768_S768x768_768_0 : S2304x768.Slices ![768, 0] S768x768
  slices_S2304x768_S768x768_1536_0 : S2304x768.Slices ![1536, 0] S768x768
  shapeCasts_S768_S1x768 : S768.ShapeCasts S1x768
  h_S1x256x768 : 0 < S1x256x768.numel
  shapeCasts_S1x256x768_S256x768 : S1x256x768.ShapeCasts S256x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  h_S256x768 : 0 < S256x768.numel
  shapeCasts_S256x768_S256x768 : S256x768.ShapeCasts S256x768
  inb_S1x256x768_S1x256x768_0_0_0 : ∀ a, (![0, 0, 0] : Fin 3 → Nat) a + S1x256x768.size a ≤ S1x256x768.size a
  shapeCasts_S256x768_S1x256x768 : S256x768.ShapeCasts S1x256x768
  slices_S256x768_o0_0_S256x64 : S256x768.Slices ![0, 0] S256x64
  inb_S2048x768_S2048x64_0_0 : ∀ a, (![0, 0] : Fin 2 → Nat) a + S2048x64.size a ≤ S2048x768.size a
  h_S2048x64 : 0 < S2048x64.numel
  reduces_S256x2048_S256 : S256x2048.Reduces [1] S256
  shapeCasts_S256_S256x1 : S256.ShapeCasts S256x1
  broadcasts_S256x1_S256x2048 : S256x1.Broadcasts S256x2048
  slices_S256x768_o0_64_S256x64 : S256x768.Slices ![0, 64] S256x64
  inb_S2048x768_S2048x64_0_64 : ∀ a, (![0, 64] : Fin 2 → Nat) a + S2048x64.size a ≤ S2048x768.size a
  slices_S256x768_o0_128_S256x64 : S256x768.Slices ![0, 128] S256x64
  inb_S2048x768_S2048x64_0_128 : ∀ a, (![0, 128] : Fin 2 → Nat) a + S2048x64.size a ≤ S2048x768.size a
  slices_S256x768_o0_192_S256x64 : S256x768.Slices ![0, 192] S256x64
  inb_S2048x768_S2048x64_0_192 : ∀ a, (![0, 192] : Fin 2 → Nat) a + S2048x64.size a ≤ S2048x768.size a
  slices_S256x768_o0_256_S256x64 : S256x768.Slices ![0, 256] S256x64
  inb_S2048x768_S2048x64_0_256 : ∀ a, (![0, 256] : Fin 2 → Nat) a + S2048x64.size a ≤ S2048x768.size a
  slices_S256x768_o0_320_S256x64 : S256x768.Slices ![0, 320] S256x64
  inb_S2048x768_S2048x64_0_320 : ∀ a, (![0, 320] : Fin 2 → Nat) a + S2048x64.size a ≤ S2048x768.size a
  slices_S256x768_o0_384_S256x64 : S256x768.Slices ![0, 384] S256x64
  inb_S2048x768_S2048x64_0_384 : ∀ a, (![0, 384] : Fin 2 → Nat) a + S2048x64.size a ≤ S2048x768.size a
  slices_S256x768_o0_448_S256x64 : S256x768.Slices ![0, 448] S256x64
  inb_S2048x768_S2048x64_0_448 : ∀ a, (![0, 448] : Fin 2 → Nat) a + S2048x64.size a ≤ S2048x768.size a
  slices_S256x768_o0_512_S256x64 : S256x768.Slices ![0, 512] S256x64
  inb_S2048x768_S2048x64_0_512 : ∀ a, (![0, 512] : Fin 2 → Nat) a + S2048x64.size a ≤ S2048x768.size a
  slices_S256x768_o0_576_S256x64 : S256x768.Slices ![0, 576] S256x64
  inb_S2048x768_S2048x64_0_576 : ∀ a, (![0, 576] : Fin 2 → Nat) a + S2048x64.size a ≤ S2048x768.size a
  slices_S256x768_o0_640_S256x64 : S256x768.Slices ![0, 640] S256x64
  inb_S2048x768_S2048x64_0_640 : ∀ a, (![0, 640] : Fin 2 → Nat) a + S2048x64.size a ≤ S2048x768.size a
  slices_S256x768_o0_704_S256x64 : S256x768.Slices ![0, 704] S256x64
  inb_S2048x768_S2048x64_0_704 : ∀ a, (![0, 704] : Fin 2 → Nat) a + S2048x64.size a ≤ S2048x768.size a
  concatenates_S256x64_S256x64_S256x64_S256x64_S256x64_S256x64_S256x64_S256x64_S256x64_S256x64_S256x64_S256x64_S256x768_d1 : Shape.Concatenates [S256x64, S256x64, S256x64, S256x64, S256x64, S256x64, S256x64, S256x64, S256x64, S256x64, S256x64, S256x64] S256x768 1
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  dot_S256x768_S768x768_S256x768_1_0_0_1_n_n_wf : DotDims.WF S256x768 S768x768 S256x768 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, ∀ (k0_h1 : k0_cond1 i = 1#1), 256 ∣ k0_mult1.toNat
  k0_off1_inb : ∀ i : grid0.Coords, ∀ (k0_h1 : k0_cond1 i = 1#1), ∀ (r : Fin 8), ∀ a, (k0_off1 (BitVec.ofNat 32 r.val)) a + S1x256x768.size a ≤ S1x2048x768.size a
  k0_off2_inb : ∀ i : grid0.Coords, ∀ (k0_h1 : k0_cond1 i = 1#1), ∀ (r : Fin 8), ∀ a, (k0_off2 (BitVec.ofNat 32 r.val)) a + S256x768.size a ≤ S2048x768.size a
  k0_mult2_dvd : ∀ i : grid0.Coords, ∀ (k0_h1 : k0_cond1 i = 1#1), 256 ∣ k0_mult2.toNat
  k0_mult3_dvd : ∀ i : grid0.Coords, ∀ (k0_h1 : k0_cond1 i = 1#1), 256 ∣ k0_mult3.toNat
  k0_mult4_dvd : ∀ i : grid0.Coords, ∀ (k0_h1 : k0_cond1 i = 1#1), 256 ∣ k0_mult4.toNat
  k0_mult5_dvd : ∀ i : grid0.Coords, ∀ (k0_h1 : k0_cond1 i = 1#1), 256 ∣ k0_mult5.toNat
  k0_mult6_dvd : ∀ i : grid0.Coords, ∀ (k0_h1 : k0_cond1 i = 1#1), 256 ∣ k0_mult6.toNat
  k0_mult7_dvd : ∀ i : grid0.Coords, ∀ (k0_h1 : k0_cond1 i = 1#1), 256 ∣ k0_mult7.toNat
  k0_mult8_dvd : ∀ i : grid0.Coords, ∀ (k0_h1 : k0_cond1 i = 1#1), 256 ∣ k0_mult8.toNat
  k0_mult9_dvd : ∀ i : grid0.Coords, 256 ∣ (k0_mult9 i).toNat
  k0_off3_inb : ∀ i : grid0.Coords, ∀ a, (k0_off3 i) a + S1x256x768.size a ≤ S1x2048x768.size a
  k0_off4_inb : ∀ i : grid0.Coords, ∀ a, (k0_off4 i) a + S256x768.size a ≤ S2048x768.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S4x2048x768.size a
  hwx0_0 : ∀ i : grid0.Coords, EltTy.bits .f32 = 32 ∨ (Rect.block (s := S4x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x768.size a ≤ S4x2048x768.size a
  hwx0_6 : ∀ i : grid0.Coords, EltTy.bits .f32 = 32 ∨ (Rect.block (s := S4x2048x768) S1x256x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x768.size a ≤ S4x2048x768.size a
  hwx0_7 : ∀ i : grid0.Coords, EltTy.bits .f32 = 32 ∨ (Rect.block (s := S4x2048x768) S1x256x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x768.size a ≤ S4x2048x768.size a
  hwx0_8 : ∀ i : grid0.Coords, EltTy.bits .f32 = 32 ∨ (Rect.block (s := S4x2048x768) S1x256x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x768.size a ≤ S4x2048x768.size a
  hwx0_9 : ∀ i : grid0.Coords, EltTy.bits .f32 = 32 ∨ (Rect.block (s := S4x2048x768) S1x256x768.size (cc0_transform_9 i) (hinb0_9 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x2048x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S1x256x768.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x256x768.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_2) S1x256x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_3) S1x256x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S4x2048x2304 : Shape := ⟨3, ![4, 2048, 2304]⟩
abbrev S4x2048x3x12x64 : Shape := ⟨5, ![4, 2048, 3, 12, 64]⟩
abbrev S3x4x12x2048x64 : Shape := ⟨5, ![3, 4, 12, 2048, 64]⟩
abbrev S1x4x12x2048x64 : Shape := ⟨5, ![1, 4, 12, 2048, 64]⟩
abbrev S4x12x2048x64 : Shape := ⟨4, ![4, 12, 2048, 64]⟩
abbrev S4x2048x3x768 : Shape := ⟨4, ![4, 2048, 3, 768]⟩
abbrev S3x4x2048x768 : Shape := ⟨4, ![3, 4, 2048, 768]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩
abbrev S1x1x768 : Shape := ⟨3, ![1, 1, 768]⟩
abbrev S1x4x2048x768 : Shape := ⟨4, ![1, 4, 2048, 768]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S4x2048x2304, .f32⟩
  | .hbm, ⟨5, _⟩ => ⟨S4x2048x3x12x64, .f32⟩
  | .hbm, ⟨6, _⟩ => ⟨S3x4x12x2048x64, .f32⟩
  | .hbm, ⟨7, _⟩ => ⟨S1x4x12x2048x64, .f32⟩
  | .hbm, ⟨8, _⟩ => ⟨S4x12x2048x64, .f32⟩
  | .hbm, ⟨9, _⟩ => ⟨S1x4x12x2048x64, .f32⟩
  | .hbm, ⟨10, _⟩ => ⟨S4x12x2048x64, .f32⟩
  | .hbm, ⟨11, _⟩ => ⟨S1x4x12x2048x64, .f32⟩
  | .hbm, ⟨12, _⟩ => ⟨S4x12x2048x64, .f32⟩
  | .hbm, ⟨13, _⟩ => ⟨S4x2048x3x768, .f32⟩
  | .hbm, ⟨14, _⟩ => ⟨S3x4x2048x768, .f32⟩
  | .hbm, ⟨15, _⟩ => ⟨S4x12x2048x2048, .f32⟩
  | .hbm, ⟨16, _⟩ => ⟨S_, .f32⟩
  | .hbm, ⟨17, _⟩ => ⟨S4x12x2048x2048, .f32⟩
  | .hbm, ⟨18, _⟩ => ⟨S4x12x2048x2048, .f32⟩
  | .hbm, ⟨19, _⟩ => ⟨S_, .f32⟩
  | .hbm, ⟨20, _⟩ => ⟨S4x12x2048, .f32⟩
  | .hbm, ⟨21, _⟩ => ⟨S_, .f32⟩
  | .hbm, ⟨22, _⟩ => ⟨S4x12x2048, .f32⟩
  | .hbm, ⟨23, _⟩ => ⟨S4x12x2048, .f32⟩
  | .hbm, ⟨24, _⟩ => ⟨S4x12x2048x1, .f32⟩
  | .hbm, ⟨25, _⟩ => ⟨S4x12x2048x2048, .f32⟩
  | .hbm, ⟨26, _⟩ => ⟨S4x12x2048x2048, .f32⟩
  | .hbm, ⟨27, _⟩ => ⟨S4x12x2048x2048, .f32⟩
  | .hbm, ⟨28, _⟩ => ⟨S_, .f32⟩
  | .hbm, ⟨29, _⟩ => ⟨S4x12x2048, .f32⟩
  | .hbm, ⟨30, _⟩ => ⟨S4x12x2048x1, .f32⟩
  | .hbm, ⟨31, _⟩ => ⟨S4x12x2048x2048, .f32⟩
  | .hbm, ⟨32, _⟩ => ⟨S4x12x2048x2048, .f32⟩
  | .hbm, ⟨33, _⟩ => ⟨S4x12x2048x64, .f32⟩
  | .hbm, ⟨34, _⟩ => ⟨S4x2048x12x64, .f32⟩
  | .hbm, ⟨35, _⟩ => ⟨S4x2048x768, .f32⟩
  | .hbm, ⟨36, _⟩ => ⟨S4x2048x768, .f32⟩
  | .hbm, ⟨37, _⟩ => ⟨S1x1x768, .f32⟩
  | .hbm, ⟨38, _⟩ => ⟨S4x2048x768, .f32⟩
  | .hbm, ⟨39, _⟩ => ⟨S4x2048x768, .f32⟩
  | .hbm, ⟨40, _⟩ => ⟨S1x4x2048x768, .f32⟩
  | .hbm, ⟨41, _⟩ => ⟨S4x2048x768, .f32⟩
  | .hbm, ⟨42, _⟩ => ⟨S1x4x2048x768, .f32⟩
  | .hbm, ⟨43, _⟩ => ⟨S4x2048x768, .f32⟩
  | .hbm, ⟨44, _⟩ => ⟨S1x4x2048x768, .f32⟩
  | .hbm, ⟨45, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]

class Facts₀ : Prop where
  shapeCasts_S4x2048x2304_S4x2048x3x12x64 : S4x2048x2304.ShapeCasts S4x2048x3x12x64
  transposes_S4x2048x3x12x64_S3x4x12x2048x64_2_0_3_1_4 : S4x2048x3x12x64.Transposes [2, 0, 3, 1, 4] S3x4x12x2048x64
  slices_S3x4x12x2048x64_S1x4x12x2048x64_0_0_0_0_0 : S3x4x12x2048x64.Slices ![0, 0, 0, 0, 0] S1x4x12x2048x64
  shapeCasts_S1x4x12x2048x64_S4x12x2048x64 : S1x4x12x2048x64.ShapeCasts S4x12x2048x64
  slices_S3x4x12x2048x64_S1x4x12x2048x64_1_0_0_0_0 : S3x4x12x2048x64.Slices ![1, 0, 0, 0, 0] S1x4x12x2048x64
  slices_S3x4x12x2048x64_S1x4x12x2048x64_2_0_0_0_0 : S3x4x12x2048x64.Slices ![2, 0, 0, 0, 0] S1x4x12x2048x64
  shapeCasts_S4x2048x2304_S4x2048x3x768 : S4x2048x2304.ShapeCasts S4x2048x3x768
  transposes_S4x2048x3x768_S3x4x2048x768_2_0_1_3 : S4x2048x3x768.Transposes [2, 0, 1, 3] S3x4x2048x768
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  slices_S3x4x2048x768_S1x4x2048x768_0_0_0_0 : S3x4x2048x768.Slices ![0, 0, 0, 0] S1x4x2048x768
  shapeCasts_S1x4x2048x768_S4x2048x768 : S1x4x2048x768.ShapeCasts S4x2048x768
  slices_S3x4x2048x768_S1x4x2048x768_1_0_0_0 : S3x4x2048x768.Slices ![1, 0, 0, 0] S1x4x2048x768
  slices_S3x4x2048x768_S1x4x2048x768_2_0_0_0 : S3x4x2048x768.Slices ![2, 0, 0, 0] S1x4x2048x768
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.LibPlainDot.lean ====
/-
  A plain matrix product read at an index, at the ideal instance.

  For the dimension numbers of an `M × K` by `K × N` product (contract the left operand's second axis with the right
  operand's first), a kernel's matrix product into a zero accumulator and the host's `dot_general` are both, at the output
  index `(r, c)`, the sum over `k : Fin K` of `lhs (r, k) * rhs (k, c)`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl
theorem plain_contr_size : (DotDims.plain M K N).contr.size ⟨0, by rw [plain_contr_rank]; exact Nat.one_pos⟩ = K := rfl

/-- The operand indices of a plain product at the output index `j` and the contraction coordinate `k`. -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A kernel's plain product into the zero accumulator, at an index. -/
theorem plain_matmul_apply (prec : Option ContractPrecision) (lhs : FVec Ideal ⟨2, ![M, K]⟩ φ₁) (rhs : FVec Ideal ⟨2, ![K, N]⟩ φ₂)
    (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply, ← Equiv.sum_comp (contrEquiv1 (DotDims.plain M K N) K rfl rfl).symm]
  exact Finset.sum_congr rfl fun k _ => by rw [plain_lhsIdx, plain_rhsIdx]; rfl

/-- The host's plain product, at an index. -/
theorem plain_dotGeneral_apply (prec : Option ContractPrecision) (sched : HostSchedule) (lhs : FVec Ideal ⟨2, ![M, K]⟩ φ₁)
    (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply, ← Equiv.sum_comp (contrEquiv1 (DotDims.plain M K N) K rfl rfl).symm]
  exact Finset.sum_congr rfl fun k _ => by rw [plain_lhsIdx, plain_rhsIdx]; rfl

end Cert.LibPlainDot

end
-- ==== Proof.LibReduceExtremum.lean ====
/-
  Reductions by maximum and minimum over the extended reals, read as suprema and infima.

  On the extended reals `max` and `min` are the join and the meet of a complete lattice whose least
  element is `-∞` and whose greatest is `+∞`. A fold of `max` that starts from `-∞` over a finite
  family is therefore the supremum of the family, whatever the order of the fold, and a fold of `min`
  from `+∞` is its infimum. The statements below read the host's `reduce` and a kernel's
  `multi_reduction` that way: over every axis at once (the result has one index, and the value there
  is the supremum over every source index), and over one axis (the value at a result index is the
  supremum over that axis's coordinates). A supremum over all indices does not change when the
  family is re-indexed along a surjection, and it is the supremum over the result indices of the
  one-axis suprema.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

namespace Idealize.ShloMosaic.ReduceExtremum

open Idealize.ShloMosaic

/-! ## The two infinities as bit patterns -/

/-- The f32 pattern `0xFF800000` (sign 1, exponent all ones, fraction 0) denotes `-∞`, the least extended real. -/
theorem ofBits_negInf_f32 : Ideal.ofBits .f32 0xFF800000#32 = ⊥ := by simp [Ideal.ofBits, Ideal.ieee]

/-- The f32 pattern `0x7F800000` (sign 0, exponent all ones, fraction 0) denotes `+∞`, the greatest extended real. -/
theorem ofBits_posInf_f32 : Ideal.ofBits .f32 0x7F800000#32 = ⊤ := by simp [Ideal.ofBits, Ideal.ieee]

/-! ## Folds of `max` from `-∞` and of `min` from `+∞` -/

/-- A fold of `max` from `-∞` over a finite set is the supremum over the set. -/
theorem fold_max_bot {ι : Type} (S : Finset ι) (x : ι → EReal) :
    S.fold max ⊥ x = ⨆ i ∈ S, x i := by
  rw [← Finset.sup_eq_iSup]; rfl

/-- A fold of `min` from `+∞` over a finite set is the infimum over the set. -/
theorem fold_min_top {ι : Type} (S : Finset ι) (x : ι → EReal) :
    S.fold min ⊤ x = ⨅ i ∈ S, x i := by
  rw [← Finset.inf_eq_iInf]; rfl

/-- Over a whole finite type: the fold of `max` from `-∞` is the supremum of the family. -/
theorem fold_max_bot_univ {ι : Type} [Fintype ι] (x : ι → EReal) :
    (Finset.univ : Finset ι).fold max ⊥ x = ⨆ i, x i := by
  rw [fold_max_bot]; simp

/-- Over a whole finite type: the fold of `min` from `+∞` is the infimum of the family. -/
theorem fold_min_top_univ {ι : Type} [Fintype ι] (x : ι → EReal) :
    (Finset.univ : Finset ι).fold min ⊤ x = ⨅ i, x i := by
  rw [fold_min_top]; simp

/-! ## A reduction over every axis: the supremum, or the infimum, of the whole array -/

section AllAxes
variable {s t u : Shape} {axes : List (Fin s.rank)} {φ : FTy}

/-- A result shape of rank zero has no axis, so each of its axes has size one. -/
theorem size_eq_one_of_rank_zero {d : Fin 0 → Nat} (b : Fin (⟨0, d⟩ : Shape).rank) : (⟨0, d⟩ : Shape).size b = 1 :=
  b.elim0

/-- The host's reduction by `max` into a shape whose every axis has size one (every source index reduces to the one
    result index), started from `-∞`, is at that index the supremum of the source over ALL its indices. -/
theorem hostReduce_max_all (x : s.Idx → EReal) (init : u.Idx → EReal) (h : s.ReducesTo axes t) (hu : 0 < u.numel)
    (ht : ∀ b, t.size b = 1) (hinit : init (Shape.Idx.first hu) = ⊥) (j : t.Idx) :
    Host.reduce (FloatOps.maximumf (F := Ideal) (φ := φ)) x init h hu j = ⨆ i : s.Idx, x i := by
  rw [Host.reduce_eq_fold, hinit,
    Finset.filter_true_of_mem fun i _ => funext fun b => Fin.ext (by
      have := (h.drop i b).isLt; have := (j b).isLt; have := ht b; omega)]
  exact fold_max_bot_univ x

/-- The same for `min` started from `+∞`: the infimum of the source over all its indices. -/
theorem hostReduce_min_all (x : s.Idx → EReal) (init : u.Idx → EReal) (h : s.ReducesTo axes t) (hu : 0 < u.numel)
    (ht : ∀ b, t.size b = 1) (hinit : init (Shape.Idx.first hu) = ⊤) (j : t.Idx) :
    Host.reduce (FloatOps.minimumf (F := Ideal) (φ := φ)) x init h hu j = ⨅ i : s.Idx, x i := by
  rw [Host.reduce_eq_fold, hinit,
    Finset.filter_true_of_mem fun i _ => funext fun b => Fin.ext (by
      have := (h.drop i b).isLt; have := (j b).isLt; have := ht b; omega)]
  exact fold_min_top_univ x

/-- In the form a program prints it: the f32 maximum over all axes, from the constant `0xFF800000` (`-∞`), is the
    constant array whose value is the supremum of the source. -/
theorem hostReduce_max_all_negInf (x : FVec Ideal s .f32) (h : s.ReducesTo axes t) (hu : 0 < u.numel)
    (ht : ∀ b, t.size b = 1) :
    Host.reduce FloatOps.maximumf x (constant (F := Ideal) u .f32 0xFF800000#32) h hu = fun _ => ⨆ i : s.Idx, x i :=
  funext fun j => hostReduce_max_all (φ := .f32) x _ h hu ht ofBits_negInf_f32 j

/-- The f32 minimum over all axes, from the constant `0x7F800000` (`+∞`), is the constant array whose value is the
    infimum of the source. -/
theorem hostReduce_min_all_posInf (x : FVec Ideal s .f32) (h : s.ReducesTo axes t) (hu : 0 < u.numel)
    (ht : ∀ b, t.size b = 1) :
    Host.reduce FloatOps.minimumf x (constant (F := Ideal) u .f32 0x7F800000#32) h hu = fun _ => ⨅ i : s.Idx, x i :=
  funext fun j => hostReduce_min_all (φ := .f32) x _ h hu ht ofBits_posInf_f32 j

/-- Into a result of rank zero (a scalar) no condition on the result's sizes is left. -/
theorem hostReduce_max_scalar_negInf {d : Fin 0 → Nat} (x : FVec Ideal s .f32) (h : s.ReducesTo axes ⟨0, d⟩)
    (hu : 0 < u.numel) :
    Host.reduce FloatOps.maximumf x (constant (F := Ideal) u .f32 0xFF800000#32) h hu = fun _ => ⨆ i : s.Idx, x i :=
  hostReduce_max_all_negInf x h hu size_eq_one_of_rank_zero

theorem hostReduce_min_scalar_posInf {d : Fin 0 → Nat} (x : FVec Ideal s .f32) (h : s.ReducesTo axes ⟨0, d⟩)
    (hu : 0 < u.numel) :
    Host.reduce FloatOps.minimumf x (constant (F := Ideal) u .f32 0x7F800000#32) h hu = fun _ => ⨅ i : s.Idx, x i :=
  hostReduce_min_all_posInf x h hu size_eq_one_of_rank_zero

end AllAxes

/-! ## Re-indexing: a supremum over all indices does not see the arrangement -/

section Reindex
variable {s s' t t' u u' : Shape} {axes : List (Fin s.rank)} {axes' : List (Fin s'.rank)} {φ : FTy}

/-- The maximum over all axes of an array read through a surjective index map `e` (every source element is read at
    least once: a reshape, a transpose, their composite) is the maximum over all axes of the array itself. -/
theorem hostReduce_max_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊥) (hinit' : init' (Shape.Idx.first hu') = ⊥) (j : t.Idx) (j' : t'.Idx) :
    Host.reduce (FloatOps.maximumf (F := Ideal) (φ := φ)) (fun i => x (e i)) init' h' hu' j'
      = Host.reduce (FloatOps.maximumf (F := Ideal) (φ := φ)) x init h hu j := by
  rw [hostReduce_max_all (φ := φ) _ init' h' hu' ht' hinit', hostReduce_max_all (φ := φ) x init h hu ht hinit]
  exact he.iSup_comp x

/-- The same for the minimum over all axes. -/
theorem hostReduce_min_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊤) (hinit' : init' (Shape.Idx.first hu') = ⊤) (j : t.Idx) (j' : t'.Idx) :
    Host.reduce (FloatOps.minimumf (F := Ideal) (φ := φ)) (fun i => x (e i)) init' h' hu' j'
      = Host.reduce (FloatOps.minimumf (F := Ideal) (φ := φ)) x init h hu j := by
  rw [hostReduce_min_all (φ := φ) _ init' h' hu' ht' hinit', hostReduce_min_all (φ := φ) x init h hu ht hinit]
  exact he.iInf_comp x

/-- A reshape (the same elements in row-major order under another shape) reads every source element exactly once, so
    the supremum of the reshaped array is the supremum of the array. -/
theorem iSup_shapeCast (x : s.Idx → EReal) (h : s.ShapeCasts t) : ⨆ j : t.Idx, shapeCast t x h j = ⨆ i : s.Idx, x i :=
  (Shape.reshapeEquiv h).iSup_comp (g := x)

theorem iInf_shapeCast (x : s.Idx → EReal) (h : s.ShapeCasts t) : ⨅ j : t.Idx, shapeCast t x h j = ⨅ i : s.Idx, x i :=
  (Shape.reshapeEquiv h).iInf_comp (g := x)

/-- Every source index is read by some result index of a transpose: the result index whose coordinate on axis `b` is
    the source's coordinate on axis `perm[b]`. -/
theorem transposes_src_surjective (perm : List (Fin s.rank)) (h : s.Transposes perm t) :
    Function.Surjective (h.src) := by
  intro k
  let j : t.Idx := fun b => ⟨(k perm[b.cast h.2.1]).val, by rw [h.2.2 b]; exact (k _).isLt⟩
  exact ⟨j, transpose_apply perm (fun i : s.Idx => i) h j k fun _ => rfl⟩

/-- So the supremum of a transposed array is the supremum of the array. -/
theorem iSup_transpose (perm : List (Fin s.rank)) (x : s.Idx → EReal) (h : s.Transposes perm t) :
    ⨆ j : t.Idx, transpose t perm x h j = ⨆ i : s.Idx, x i :=
  (transposes_src_surjective perm h).iSup_comp x

theorem iInf_transpose (perm : List (Fin s.rank)) (x : s.Idx → EReal) (h : s.Transposes perm t) :
    ⨅ j : t.Idx, transpose t perm x h j = ⨅ i : s.Idx, x i :=
  (transposes_src_surjective perm h).iInf_comp x

/-- The largest absolute value (the supremum of `max x (-x)`) of a transposed array is that of the array. -/
theorem iSup_abs_transpose (perm : List (Fin s.rank)) (x : s.Idx → EReal) (h : s.Transposes perm t) :
    ⨆ j : t.Idx, max (transpose t perm x h j) (-(transpose t perm x h j)) = ⨆ i : s.Idx, max (x i) (-(x i)) :=
  iSup_transpose perm (fun i => max (x i) (-(x i))) h

/-- The largest absolute value of a reshaped array is that of the array. -/
theorem iSup_abs_shapeCast (x : s.Idx → EReal) (h : s.ShapeCasts t) :
    ⨆ j : t.Idx, max (shapeCast t x h j) (-(shapeCast t x h j)) = ⨆ i : s.Idx, max (x i) (-(x i)) :=
  iSup_shapeCast (fun i => max (x i) (-(x i))) h

end Reindex

/-! ## A reduction over one axis: the supremum over that axis's coordinates -/

section OneAxis
variable {s t u : Shape} {a : Fin s.rank} {φ : FTy}

/-- The host's reduction by `max` over ONE axis, started from `-∞`, is at result index `j` the supremum over the
    coordinates `k` of that axis of the source at `j` with `k` inserted on the axis. -/
theorem hostReduce_max_single (x : s.Idx → EReal) (init : u.Idx → EReal) (h' : s.ReducesTo [a] t) (h : s.Reduces [a] t)
    (hu : 0 < u.numel) (hinit : init (Shape.Idx.first hu) = ⊥) (j : t.Idx) :
    Host.reduce (FloatOps.maximumf (F := Ideal) (φ := φ)) x init h' hu j = ⨆ k : Fin (s.size a), x (h.lift j k) := by
  rw [Host.reduce_eq_fold_single _ x init h' h hu j, hinit]
  exact fold_max_bot_univ _

/-- The same for `min` from `+∞`. -/
theorem hostReduce_min_single (x : s.Idx → EReal) (init : u.Idx → EReal) (h' : s.ReducesTo [a] t) (h : s.Reduces [a] t)
    (hu : 0 < u.numel) (hinit : init (Shape.Idx.first hu) = ⊤) (j : t.Idx) :
    Host.reduce (FloatOps.minimumf (F := Ideal) (φ := φ)) x init h' hu j = ⨅ k : Fin (s.size a), x (h.lift j k) := by
  rw [Host.reduce_eq_fold_single _ x init h' h hu j, hinit]
  exact fold_min_top_univ _

/-- In the printed form: the f32 maximum over one axis from the constant `0xFF800000`. -/
theorem hostReduce_max_single_negInf (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) :=
  hostReduce_max_single (φ := .f32) x _ h' h hu ofBits_negInf_f32 j

/-- A kernel's `multi_reduction <maximumf>` over one axis whose accumulator pattern denotes `-∞` is at `j` the
    supremum over that axis's coordinates. -/
theorem multiReduction_max_single (src : FVec Ideal s φ) (acc : BitVec φ.bits) (h : s.Reduces [a] t)
    (hφ : FKind.Formats φ) (hacc : acc = FKind.maximumf.neutral φ hφ) (hbot : Ideal.ofBits φ acc = ⊥) (j : t.Idx) :
    multiReduction .maximumf [a] t src acc h hφ hacc j = ⨆ k : Fin (s.size a), src (h.lift j k) := by
  rw [Ideal.multiReduction_maximumf_single]
  show (Finset.univ : Finset (Fin (s.size a))).fold max (Ideal.ofBits φ acc) (src ∘ h.lift j) = _
  rw [hbot]
  exact fold_max_bot_univ _

/-- At f32 with the accumulator `0xFF800000`, as a kernel prints a row maximum. -/
theorem multiReduction_max_single_f32 (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) :=
  multiReduction_max_single src _ h hφ hacc ofBits_negInf_f32 j

/-- The same with the accumulator's side condition spelt as a printed program carries it (a proof that the
    pattern equals itself), so that the lemma applies to the printed term as it stands. -/
theorem multiReduction_max_single_f32_printed (src : FVec Ideal s .f32) (h : s.Reduces [a] t)
    (hφ : FKind.Formats .f32) (hacc : (0xFF800000#32 : BitVec 32) = 0xFF800000#32) (j : t.Idx) :
    multiReduction .maximumf [a] t src 0xFF800000#32 h hφ hacc j = ⨆ k : Fin (s.size a), src (h.lift j k) :=
  multiReduction_max_single_f32 src h hφ hacc j

/-- The supremum over all indices is the supremum, over the indices with one axis dropped, of the suprema along that
    axis: every index is its own image with that axis dropped, with its own coordinate put back. -/
theorem iSup_eq_iSup_iSup_lift (h : s.Reduces [a] t) (x : s.Idx → EReal) :
    ⨆ i : s.Idx, x i = ⨆ j : t.Idx, ⨆ k : Fin (s.size a), x (h.lift j k) := by
  refine le_antisymm (iSup_le fun i => ?_) (iSup_le fun j => iSup_le fun k => le_iSup x _)
  rw [← h.lift_drop i]
  exact le_iSup_of_le (h.drop i) (le_iSup (fun k => x (h.lift (h.drop i) k)) (i a))

/-- The same for infima. -/
theorem iInf_eq_iInf_iInf_lift (h : s.Reduces [a] t) (x : s.Idx → EReal) :
    ⨅ i : s.Idx, x i = ⨅ j : t.Idx, ⨅ k : Fin (s.size a), x (h.lift j k) := by
  refine le_antisymm (le_iInf fun j => le_iInf fun k => iInf_le x _) (le_iInf fun i => ?_)
  rw [← h.lift_drop i]
  exact iInf_le_of_le (h.drop i) (iInf_le (fun k => x (h.lift (h.drop i) k)) (i a))

/-- Along an axis of size one (a kept unit axis, as in a column `[…, 1]`) the inner infimum is the one value. -/
theorem iInf_eq_iInf_lift_of_size_one (h : s.Reduces [a] t) (hs : s.size a = 1) (x : s.Idx → EReal) :
    ⨅ i : s.Idx, x i = ⨅ j : t.Idx, x (h.lift j ⟨0, by omega⟩) := by
  rw [iInf_eq_iInf_iInf_lift h x]
  refine iInf_congr fun j => ?_
  haveI : Unique (Fin (s.size a)) := by rw [hs]; exact inferInstance
  rw [iInf_unique]
  exact congrArg (fun k => x (h.lift j k)) (Subsingleton.elim _ _)

theorem iSup_eq_iSup_lift_of_size_one (h : s.Reduces [a] t) (hs : s.size a = 1) (x : s.Idx → EReal) :
    ⨆ i : s.Idx, x i = ⨆ j : t.Idx, x (h.lift j ⟨0, by omega⟩) := by
  rw [iSup_eq_iSup_iSup_lift h x]
  refine iSup_congr fun j => ?_
  haveI : Unique (Fin (s.size a)) := by rw [hs]; exact inferInstance
  rw [iSup_unique]
  exact congrArg (fun k => x (h.lift j k)) (Subsingleton.elim _ _)

end OneAxis

/-! ## The index with a coordinate put back on the last axis, by coordinates -/

section LastAxis
open Idealize.ShloMosaic.ValueIdx

/-- Rank 4, last axis dropped: the index over `j` with coordinate `k` on the last axis is `(j 0, j 1, j 2, k)`. -/
theorem lift_last4 {n0 n1 n2 n3 : Nat}
    (h : (⟨4, ![n0, n1, n2, n3]⟩ : Shape).Reduces [3] (⟨3, ![n0, n1, n2]⟩ : Shape))
    (j : (⟨3, ![n0, n1, n2]⟩ : Shape).Idx) (k : Fin n3) : h.lift j k = ix4 (j 0) (j 1) (j 2) k := by
  funext c; apply Fin.ext
  match c with | ⟨0, _⟩ => rfl | ⟨1, _⟩ => rfl | ⟨2, _⟩ => rfl | ⟨3, _⟩ => rfl

/-- Rank 2, last axis dropped: the index over `j` with coordinate `k` on the last axis is `(j 0, k)`. -/
theorem lift_last2 {n0 n1 : Nat}
    (h : (⟨2, ![n0, n1]⟩ : Shape).Reduces [1] (⟨1, ![n0]⟩ : Shape))
    (j : (⟨1, ![n0]⟩ : Shape).Idx) (k : Fin n1) : h.lift j k = ix2 (j 0) k := by
  funext c; apply Fin.ext
  match c with | ⟨0, _⟩ => rfl | ⟨1, _⟩ => rfl

/-- A supremum over all rank-4 indices is the nested supremum over the four coordinates. -/
theorem iSup_ix4 {n0 n1 n2 n3 : Nat} (f : (⟨4, ![n0, n1, n2, n3]⟩ : Shape).Idx → EReal) :
    ⨆ i, f i = ⨆ a : Fin n0, ⨆ b : Fin n1, ⨆ c : Fin n2, ⨆ d : Fin n3, f (ix4 a b c d) := by
  refine le_antisymm (iSup_le fun i => ?_)
    (iSup_le fun a => iSup_le fun b => iSup_le fun c => iSup_le fun d => le_iSup f _)
  rw [eq_ix4 i]
  exact le_iSup_of_le (i 0) (le_iSup_of_le (i 1) (le_iSup_of_le (i 2)
    (le_iSup (fun d => f (ix4 (i 0) (i 1) (i 2) d)) (i 3))))

/-- An infimum over all rank-4 indices is the nested infimum over the four coordinates. -/
theorem iInf_ix4 {n0 n1 n2 n3 : Nat} (f : (⟨4, ![n0, n1, n2, n3]⟩ : Shape).Idx → EReal) :
    ⨅ i, f i = ⨅ a : Fin n0, ⨅ b : Fin n1, ⨅ c : Fin n2, ⨅ d : Fin n3, f (ix4 a b c d) := by
  refine le_antisymm
    (le_iInf fun a => le_iInf fun b => le_iInf fun c => le_iInf fun d => iInf_le f _) (le_iInf fun i => ?_)
  rw [eq_ix4 i]
  exact iInf_le_of_le (i 0) (iInf_le_of_le (i 1) (iInf_le_of_le (i 2)
    (iInf_le (fun d => f (ix4 (i 0) (i 1) (i 2) d)) (i 3))))

/-- A supremum over all rank-3 indices is the nested supremum over the three coordinates. -/
theorem iSup_ix3 {n0 n1 n2 : Nat} (f : (⟨3, ![n0, n1, n2]⟩ : Shape).Idx → EReal) :
    ⨆ i, f i = ⨆ a : Fin n0, ⨆ b : Fin n1, ⨆ c : Fin n2, f (ix3 a b c) := by
  refine le_antisymm (iSup_le fun i => ?_) (iSup_le fun a => iSup_le fun b => iSup_le fun c => le_iSup f _)
  rw [eq_ix3 i]
  exact le_iSup_of_le (i 0) (le_iSup_of_le (i 1) (le_iSup (fun c => f (ix3 (i 0) (i 1) c)) (i 2)))

/-- An infimum over all rank-3 indices is the nested infimum over the three coordinates. -/
theorem iInf_ix3 {n0 n1 n2 : Nat} (f : (⟨3, ![n0, n1, n2]⟩ : Shape).Idx → EReal) :
    ⨅ i, f i = ⨅ a : Fin n0, ⨅ b : Fin n1, ⨅ c : Fin n2, f (ix3 a b c) := by
  refine le_antisymm (le_iInf fun a => le_iInf fun b => le_iInf fun c => iInf_le f _) (le_iInf fun i => ?_)
  rw [eq_ix3 i]
  exact iInf_le_of_le (i 0) (iInf_le_of_le (i 1) (iInf_le (fun c => f (ix3 (i 0) (i 1) c)) (i 2)))

end LastAxis

end Idealize.ShloMosaic.ReduceExtremum
-- ==== Proof.LibColumnCast.lean ====
/-
  A vector kept as a column, read at an index given by coordinates: an [a] array cast to [a, 1] reads, at (r, u), the
  entry r, whatever the unit coordinate u. (The keepdims form of a per-row reduction's result; the row counterpart
  [a] → [1, a] is the library's, and this is stated in the same style.)
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(r, u)`, the operand at `r`: the two indices have the same row-major
    position, `r · 1 + 0`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.ColumnCast
-- ==== Proof.LibTransposedDot.lean ====
/-
  A matrix product whose right operand is contracted on its last axis, read at an index, at the ideal instance.

  For the dimension numbers of an `M × K` by `N × K` product (rows against rows: both operands contracted on their
  second axis) a kernel's matrix product into a zero accumulator is, at the output index `(r, c)`, the sum over
  `k : Fin K` of `lhs (r, k) * rhs (c, k)`. Imports only the library.
-/
import Idealize.ShloMosaic.PureOps.Ideal.Laws
import Idealize.ShloMosaic.Lib.ValueIdx

noncomputable section

namespace Cert.LibTransposedDot

open Idealize.ShloMosaic Idealize.ShloMosaic.ValueIdx

section TransposedRhs
variable {M K N : Nat} {φ₁ φ₂ : FTy}

theorem tr_lhsIdx (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl j _).trans hk

theorem tr_rhsIdx (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl j _).trans hk

/-- Rows against rows: the entry (r, c) is the sum over the shared width of the products. -/
theorem tr_matmul_apply (prec : Option ContractPrecision) (lhs : FVec Ideal ⟨2, ![M, K]⟩ φ₁) (rhs : FVec Ideal ⟨2, ![N, K]⟩ φ₂)
    (j : (⟨2, ![M, N]⟩ : Shape).Idx) :
    FloatOps.matmul (DotDims.transposedRhs M K N) prec lhs rhs (constant ⟨2, ![M, N]⟩ .f32 0x00000000#32) j
      = ∑ k : Fin K, lhs (ix2 (j 0) k) * rhs (ix2 (j 1) k) := by
  rw [Ideal.matmul_constant_zero_apply, ← Equiv.sum_comp (contrEquiv1 (DotDims.transposedRhs M K N) K rfl rfl).symm]
  exact Finset.sum_congr rfl fun k _ => by rw [tr_lhsIdx, tr_rhsIdx]; rfl

end TransposedRhs

end Cert.LibTransposedDot

end
-- ==== Proof.LibRowStat.lean ====
/-
  A per-row statistic of an [R, C] array kept as a column [R, 1] and stretched back to [R, C], read at an index, at the
  ideal instance: the row maximum taken from -∞ is the supremum of the row, the row sum from the zero word is the sum of
  the row, for any extents with R ≠ 1. (The keepdims form a softmax takes its two statistics in.) Imports the
  library and the two modules on a reduction by maximum and on a vector kept as a column.
-/
import Idealize.ShloMosaic.PureOps.Ideal.Laws
import Idealize.ShloMosaic.Lib.ValueIdx
import Idealize.ShloMosaic.Lib.Pipeline.Value
import proofs.«148277_j16887811408512_2_alg».proof.Proof.LibReduceExtremum
import proofs.«148277_j16887811408512_2_alg».proof.Proof.LibColumnCast

noncomputable section

namespace Cert.LibRowStat

open Idealize.ShloMosaic Idealize.ShloMosaic.ValueIdx

section RowStat
variable {R C : Nat}

/-- The index a reduction over the second axis of an [R, C] array visits at row r, coordinate k. -/
theorem lift_row (h : (⟨2, ![R, C]⟩ : Shape).Reduces [1] ⟨1, ![R]⟩) (r : Fin R) (k : Fin C) :
    h.lift (ix1 r) (k : Fin ((⟨2, ![R, C]⟩ : Shape).size 1)) = ix2 r k := by
  funext a
  apply Fin.ext
  match a with
  | ⟨0, _⟩ => rfl
  | ⟨1, _⟩ => rfl

/-- A column [R, 1] stretched to [R, C] reads, at (r, c), the column's entry r. -/
theorem stretch_col {α : Type} (hC : R ≠ 1) (v : (⟨2, ![R, 1]⟩ : Shape).Idx → α) (h : (⟨2, ![R, 1]⟩ : Shape).Broadcasts ⟨2, ![R, C]⟩)
    (r : Fin R) (c : Fin C) : broadcastTo ⟨2, ![R, C]⟩ v h (ix2 r c) = v (ix2 r 0) :=
  broadcastTo_apply v h _ _ fun a => by
    match a with
    | ⟨0, _⟩ => exact (if_neg hC).symm
    | ⟨1, _⟩ => exact (if_pos rfl).symm

/-- The row maximum (from -∞), kept as a column and stretched, is at (r, c) the supremum of row r. -/
theorem rowMax_apply (hR : R ≠ 1) (S : FVec Ideal ⟨2, ![R, C]⟩ .f32) (hr : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩)
    (hφ : FKind.Formats .f32) (hacc : (0xFF800000#32 : BitVec 32) = 0xFF800000#32) (r : Fin R) (c : Fin C) :
    broadcastTo ⟨2, ![R, C]⟩ (shapeCast ⟨2, ![R, 1]⟩ (multiReduction .maximumf [1] ⟨1, ![R]⟩ S 0xFF800000#32 hr hφ hacc) hc) hb (ix2 r c)
      = ⨆ k : Fin C, S (ix2 r k) := by
  rw [stretch_col hR, Cert.ColumnCast.shapeCast_a_a1_apply, ReduceExtremum.multiReduction_max_single_f32_printed]
  show (⨆ k : Fin C, S (hr.lift (ix1 r) k)) = _
  exact iSup_congr fun k => congrArg S (lift_row hr r k)

/-- The row sum, kept as a column and stretched, is at (r, c) the sum of row r. -/
theorem rowSum_apply (hR : R ≠ 1) (S : FVec Ideal ⟨2, ![R, C]⟩ .f32) (hr : (⟨2, ![R, C]⟩ : Shape).Reduces [1] ⟨1, ![R]⟩)
    (hc : (⟨1, ![R]⟩ : Shape).ShapeCasts ⟨2, ![R, 1]⟩) (hb : (⟨2, ![R, 1]⟩ : Shape).Broadcasts ⟨2, ![R, C]⟩)
    (hφ : FKind.Formats .f32) (hacc : (0x00000000#32 : BitVec 32) = 0x00000000#32) (r : Fin R) (c : Fin C) :
    broadcastTo ⟨2, ![R, C]⟩ (shapeCast ⟨2, ![R, 1]⟩ (multiReduction .add [1] ⟨1, ![R]⟩ S 0x00000000#32 hr hφ hacc) hc) hb (ix2 r c)
      = ∑ k : Fin C, S (ix2 r k) := by
  rw [stretch_col hR, Cert.ColumnCast.shapeCast_a_a1_apply]
  refine (Ideal.multiReduction_add_single S _ hr hφ hacc (ix1 r)).trans ?_
  show (∑ k : Fin C, S (hr.lift (ix1 r) k)) = _
  exact Finset.sum_congr rfl fun k _ => congrArg S (lift_row hr r k)

end RowStat

end Cert.LibRowStat

end
-- ==== Proof.AttnHead.lean ====
/-
  One attention head over a tile of 256 query rows against 2048 keys of width 64, at the ideal instance.

  The vector computation (a product of the query rows with the key rows contracted on the width, a scale, the
  row maximum, the exponential of the difference, the row sum, the quotient, and the product with the value rows)
  is read index by index: at row p and column d it is the sum over the keys m of the softmax weight of the scaled
  score of p against m, times the value entry (m, d).
-/
import Idealize.ShloMosaic.PureOps.Ideal.Laws
import Idealize.ShloMosaic.Lib.ValueIdx
import Idealize.ShloMosaic.Lib.Pipeline.Value
import proofs.«148277_j16887811408512_2_alg».proof.Proof.LibPlainDot
import proofs.«148277_j16887811408512_2_alg».proof.Proof.LibReduceExtremum
import proofs.«148277_j16887811408512_2_alg».proof.Proof.LibColumnCast
import proofs.«148277_j16887811408512_2_alg».proof.Proof.LibTransposedDot
import proofs.«148277_j16887811408512_2_alg».proof.Proof.LibRowStat

noncomputable section

namespace Cert.Attn

open Idealize.ShloMosaic Idealize.ShloMosaic.ValueIdx Cert.LibTransposedDot Cert.LibRowStat

/-! ## The head -/

abbrev Tq : Shape := ⟨2, ![256, 64]⟩
abbrev Tkv : Shape := ⟨2, ![2048, 64]⟩
abbrev Ts : Shape := ⟨2, ![256, 2048]⟩
abbrev Tr : Shape := ⟨1, ![256]⟩
abbrev Tc : Shape := ⟨2, ![256, 1]⟩

/-- The softmax weight of entry m of a finite family of scores: exp of the score less the supremum, over the sum
    of those exponentials. -/
def wt {n : Nat} (s : Fin n → EReal) (m : Fin n) : EReal :=
  Ideal.div (Ideal.exp (s m - ⨆ j, s j)) (∑ j, Ideal.exp (s j - ⨆ l, s l))

/-- The scaled score of a query row against a key row (the scale is the f32 word of 1/8, read at the ideal instance). -/
def score (q k : Fin 64 → EReal) : EReal :=
  (∑ d : Fin 64, q d * k d) * Ideal.ofBits .f32 0x3E000000#32

/-- One head's output entry: the softmax-weighted sum of a value column. -/
def headAt (q : Fin 64 → EReal) (k : Fin 2048 → Fin 64 → EReal) (v : Fin 2048 → EReal) : EReal :=
  ∑ m : Fin 2048, wt (fun j => score q (k j)) m * v m

section Vec
variable {F : FTy → Type} [FloatOps F]

/-- The scaled scores of a tile, as the vector operations compute them. -/
def scoreVec (D1 : DotDims Tq Tkv Ts) (q : FVec F Tq .bf16) (k : FVec F Tkv .bf16) : FVec F Ts .f32 :=
  mulf (matmul D1 none q k (constant Ts .f32 0x00000000#32)) (broadcast Ts (Scalar.ofBits .f32 0x3E000000#32))

/-- The row maximum of the scores as a column. -/
def maxCol (hr : Ts.Reduces [1] Tr) (hc : Tr.ShapeCasts Tc) (s : FVec F Ts .f32) : FVec F Tc .f32 :=
  shapeCast Tc (multiReduction .maximumf [1] Tr s 0xFF800000#32 hr (.inl rfl) rfl) hc

/-- exp of the scores less their row maximum. -/
def expVec (hb : Tc.Broadcasts Ts) (s : FVec F Ts .f32) (mc : FVec F Tc .f32) : FVec F Ts .f32 :=
  exp (subf s (broadcastTo Ts mc hb))

/-- The normalised weights times the value rows. -/
def outVec (D2 : DotDims Ts Tkv Tq) (hr : Ts.Reduces [1] Tr) (hc : Tr.ShapeCasts Tc) (hb : Tc.Broadcasts Ts)
    (e : FVec F Ts .f32) (v : FVec F Tkv .bf16) : FVec F Tq .f32 :=
  matmul D2 none
    (truncf .bf16 (divf e (broadcastTo Ts (shapeCast Tc (multiReduction .add [1] Tr e 0x00000000#32 hr (.inl rfl) rfl) hc) hb)) (by decide))
    v (constant Tq .f32 0x00000000#32)

/-- The whole head. -/
def headVec (D1 : DotDims Tq Tkv Ts) (D2 : DotDims Ts Tkv Tq) (hr : Ts.Reduces [1] Tr) (hc : Tr.ShapeCasts Tc) (hb : Tc.Broadcasts Ts)
    (q : FVec F Tq .bf16) (k v : FVec F Tkv .bf16) : FVec F Tq .f32 :=
  outVec D2 hr hc hb (expVec hb (scoreVec D1 q k) (maxCol hr hc (scoreVec D1 q k))) v

end Vec

theorem scoreVec_apply (q : FVec Ideal Tq .bf16) (k : FVec Ideal Tkv .bf16) (p : Fin 256) (m : Fin 2048) :
    scoreVec (DotDims.transposedRhs 256 64 2048) q k (ix2 p m) = score (fun d => q (ix2 p d)) (fun d => k (ix2 m d)) := by
  unfold scoreVec score
  show FloatOps.matmul _ _ _ _ _ _ * _ = _
  rw [tr_matmul_apply]
  rfl

theorem expVec_apply (hr : Ts.Reduces [1] Tr) (hc : Tr.ShapeCasts Tc) (hb : Tc.Broadcasts Ts) (s : FVec Ideal Ts .f32)
    (p : Fin 256) (m : Fin 2048) :
    expVec hb s (maxCol hr hc s) (ix2 p m) = Ideal.exp (s (ix2 p m) - ⨆ j : Fin 2048, s (ix2 p j)) := by
  unfold expVec maxCol
  show Ideal.exp (s (ix2 p m) - broadcastTo Ts _ hb (ix2 p m)) = _
  rw [rowMax_apply (by decide)]

theorem outVec_apply (hr : Ts.Reduces [1] Tr) (hc : Tr.ShapeCasts Tc) (hb : Tc.Broadcasts Ts) (e : FVec Ideal Ts .f32)
    (v : FVec Ideal Tkv .bf16) (p : Fin 256) (d : Fin 64) :
    outVec (DotDims.plain 256 2048 64) hr hc hb e v (ix2 p d)
      = ∑ m : Fin 2048, Ideal.div (e (ix2 p m)) (∑ j : Fin 2048, e (ix2 p j)) * v (ix2 m d) := by
  unfold outVec
  show FloatOps.matmul (DotDims.plain 256 2048 64) none _ v _ (ix2 p d) = _
  rw [Cert.LibPlainDot.plain_matmul_apply]
  refine Finset.sum_congr rfl fun m _ => ?_
  show Ideal.div (e (ix2 p m)) (broadcastTo Ts _ hb (ix2 p m)) * _ = _
  rw [rowSum_apply (by decide)]

/-- The head's entry (p, d): the weighted sum over the keys. -/
theorem headVec_apply (hr : Ts.Reduces [1] Tr) (hc : Tr.ShapeCasts Tc) (hb : Tc.Broadcasts Ts)
    (q : FVec Ideal Tq .bf16) (k v : FVec Ideal Tkv .bf16) (p : Fin 256) (d : Fin 64) :
    headVec (DotDims.transposedRhs 256 64 2048) (DotDims.plain 256 2048 64) hr hc hb q k v (ix2 p d)
      = headAt (fun d => q (ix2 p d)) (fun m d => k (ix2 m d)) (fun m => v (ix2 m d)) := by
  unfold headVec headAt wt
  rw [outVec_apply]
  refine Finset.sum_congr rfl fun m _ => ?_
  simp only [expVec_apply, scoreVec_apply]

end Cert.Attn

end
-- ==== Proof.KernelTile.lean ====
/-
  One grid point's output tile as a function of the query rows of the batch, the four weight matrices, the bias row
  and the key and value projections of the whole batch held in the two carried buffers.

  The body's value for the attention output is a composition of twelve heads, one per block of 64 columns: head h
  takes columns 64h … 64h+63 of the query tile's projection and of the key and value buffers, and the twelve results
  are set side by side, multiplied by the output weights and shifted by the bias. What a point leaves in its four
  output blocks is stated for both control cases: at the first point of a batch the key and value buffers read are the
  ones the same body has just written, at the other points the ones the point before left.
-/
import proofs.«148277_j16887811408512_2_alg».proof.Proof.Gen.KernelIdeal.Frame
import proofs.«148277_j16887811408512_2_alg».proof.Proof.AttnHead
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen Cert.Attn

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- One head on a query slice and the f32 key and value slices (cast to the matrix unit's input format). -/
def hv (q : FVec F S256x64 .bf16) (k v : Vec F S2048x64 .f32) : FVec F S256x64 .f32 :=
  headVec dot_S256x64_S2048x64_S256x2048_1_1_0_0_n_n dot_S256x2048_S2048x64_S256x64_1_0_0_1_n_n
    reduces_S256x2048_S256 shapeCasts_S256_S256x1 broadcasts_S256x1_S256x2048 q
    (truncf .bf16 k bitsLt_bf16_f32) (truncf .bf16 v bitsLt_bf16_f32)

/-! Each head's value, however the body's statements were grouped, is the same head function of its column block. -/
theorem head0 (xt : Vec F S1x256x768 .f32) (wq : Vec F S768x768 .bf16) (a b : Vec F S2048x64 .f32) :
    (k0_pay33 xt wq a b) = hv (extractStridedSlice S256x64 ![0, 0] (k0_pay32 xt wq) slices_S256x768_o0_0_S256x64) a b := rfl
theorem head1 (xt : Vec F S1x256x768 .f32) (wq : Vec F S768x768 .bf16) (a b : Vec F S2048x64 .f32) :
    (k0_pay35 (k0_pay34 xt wq) a b) = hv (extractStridedSlice S256x64 ![0, 64] (k0_pay32 xt wq) slices_S256x768_o0_64_S256x64) a b := rfl
theorem head2 (xt : Vec F S1x256x768 .f32) (wq : Vec F S768x768 .bf16) (a b : Vec F S2048x64 .f32) :
    (k0_pay36 (k0_pay32 xt wq) a b) = hv (extractStridedSlice S256x64 ![0, 128] (k0_pay32 xt wq) slices_S256x768_o0_128_S256x64) a b := rfl
theorem head3 (xt : Vec F S1x256x768 .f32) (wq : Vec F S768x768 .bf16) (a b : Vec F S2048x64 .f32) :
    (k0_pay39 (k0_pay37 (k0_pay32 xt wq)) (k0_pay38 a) b) = hv (extractStridedSlice S256x64 ![0, 192] (k0_pay32 xt wq) slices_S256x768_o0_192_S256x64) a b := rfl
theorem head4 (xt : Vec F S1x256x768 .f32) (wq : Vec F S768x768 .bf16) (a b : Vec F S2048x64 .f32) :
    (k0_pay40 (k0_pay32 xt wq) a b) = hv (extractStridedSlice S256x64 ![0, 256] (k0_pay32 xt wq) slices_S256x768_o0_256_S256x64) a b := rfl
theorem head5 (xt : Vec F S1x256x768 .f32) (wq : Vec F S768x768 .bf16) (a b : Vec F S2048x64 .f32) :
    (k0_pay44 (k0_pay41 (k0_pay32 xt wq)) (k0_pay42 a) (k0_pay43 b)) = hv (extractStridedSlice S256x64 ![0, 320] (k0_pay32 xt wq) slices_S256x768_o0_320_S256x64) a b := rfl
theorem head6 (xt : Vec F S1x256x768 .f32) (wq : Vec F S768x768 .bf16) (a b : Vec F S2048x64 .f32) :
    (k0_pay45 (k0_pay32 xt wq) a b) = hv (extractStridedSlice S256x64 ![0, 384] (k0_pay32 xt wq) slices_S256x768_o0_384_S256x64) a b := rfl
theorem head7 (xt : Vec F S1x256x768 .f32) (wq : Vec F S768x768 .bf16) (a b : Vec F S2048x64 .f32) :
    (k0_pay49 (k0_pay46 b) (k0_pay47 (k0_pay32 xt wq) a) k0_pay48) = hv (extractStridedSlice S256x64 ![0, 448] (k0_pay32 xt wq) slices_S256x768_o0_448_S256x64) a b := rfl
theorem head8 (xt : Vec F S1x256x768 .f32) (wq : Vec F S768x768 .bf16) (a b : Vec F S2048x64 .f32) :
    (k0_pay50 (k0_pay32 xt wq) a b) = hv (extractStridedSlice S256x64 ![0, 512] (k0_pay32 xt wq) slices_S256x768_o0_512_S256x64) a b := rfl
theorem head9 (xt : Vec F S1x256x768 .f32) (wq : Vec F S768x768 .bf16) (a b : Vec F S2048x64 .f32) :
    (k0_pay54 (k0_pay51 b) (k0_pay52 (k0_pay32 xt wq) a) (k0_pay53 (k0_pay32 xt wq) a)) = hv (extractStridedSlice S256x64 ![0, 576] (k0_pay32 xt wq) slices_S256x768_o0_576_S256x64) a b := rfl
theorem head10 (xt : Vec F S1x256x768 .f32) (wq : Vec F S768x768 .bf16) (a b : Vec F S2048x64 .f32) :
    (k0_pay55 (k0_pay32 xt wq) a b) = hv (extractStridedSlice S256x64 ![0, 640] (k0_pay32 xt wq) slices_S256x768_o0_640_S256x64) a b := rfl

/-- The twelve heads set side by side, times the output weights, plus the bias row, as a [1, 256, 768] block. -/
def finish (o0 o1 o2 o3 o4 o5 o6 o7 o8 o9 o10 o11 : FVec F S256x64 .f32) (wp : Vec F S768x768 .bf16) (bp : Vec F S1x768 .f32) :
    FVec F S1x256x768 .f32 :=
  shapeCast S1x256x768
    (addf
      (matmul dot_S256x768_S768x768_S256x768_1_0_0_1_n_n none
        (truncf .bf16 (concatenate S256x768 1 [⟨S256x64, o0⟩, ⟨S256x64, o1⟩, ⟨S256x64, o2⟩, ⟨S256x64, o3⟩, ⟨S256x64, o4⟩, ⟨S256x64, o5⟩, ⟨S256x64, o6⟩, ⟨S256x64, o7⟩, ⟨S256x64, o8⟩, ⟨S256x64, o9⟩, ⟨S256x64, o10⟩, ⟨S256x64, o11⟩]
          concatenates_S256x64_S256x64_S256x64_S256x64_S256x64_S256x64_S256x64_S256x64_S256x64_S256x64_S256x64_S256x64_S256x768_d1) bitsLt_bf16_f32)
        (shapeCast S768x768 wp shapeCasts_S768x768_S768x768) (constant S256x768 .f32 0x00000000#32))
      (broadcastTo S256x768 (shapeCast S1x768 (shapeCast S1x768 bp shapeCasts_S1x768_S1x768) shapeCasts_S1x768_S1x768) broadcasts_S1x768_S256x768))
    shapeCasts_S256x768_S1x256x768

theorem last_head (o0 o1 o2 o3 o4 o5 o6 o7 o8 o9 o10 : FVec F S256x64 .f32) (q : FVec F S256x768 .bf16) (a b : Vec F S2048x64 .f32)
    (wp : Vec F S768x768 .bf16) (bp : Vec F S1x768 .f32) :
    k0_pay1 o0 o1 o2 o3 o4 o5 o6 o7 o8 o9 o10 (k0_pay56 b) (k0_pay57 q a) wp bp
      = finish o0 o1 o2 o3 o4 o5 o6 o7 o8 o9 o10 (hv (extractStridedSlice S256x64 ![0, 704] q slices_S256x768_o0_704_S256x64) a b) wp bp := rfl

/-- The attention output tile: from the tile's rows of the input, the query and output weights, the bias row, and the
    key and value buffers. -/
def tileVec (xt : Vec F S1x256x768 .f32) (wq wp : Vec F S768x768 .bf16) (bp : Vec F S1x768 .f32) (ks vs : Vec F S2048x768 .f32) :
    FVec F S1x256x768 .f32 :=
  k0_pay1
      (k0_pay33 xt wq (View.ld ks (Rect.unit ![0, 0] ![2048, 64] inb_S2048x768_S2048x64_0_0)) (View.ld vs (Rect.unit ![0, 0] ![2048, 64] inb_S2048x768_S2048x64_0_0)))
      (k0_pay35 (k0_pay34 xt wq) (View.ld ks (Rect.unit ![0, 64] ![2048, 64] inb_S2048x768_S2048x64_0_64)) (View.ld vs (Rect.unit ![0, 64] ![2048, 64] inb_S2048x768_S2048x64_0_64)))
      (k0_pay36 (k0_pay32 xt wq) (View.ld ks (Rect.unit ![0, 128] ![2048, 64] inb_S2048x768_S2048x64_0_128)) (View.ld vs (Rect.unit ![0, 128] ![2048, 64] inb_S2048x768_S2048x64_0_128)))
      (k0_pay39 (k0_pay37 (k0_pay32 xt wq)) (k0_pay38 (View.ld ks (Rect.unit ![0, 192] ![2048, 64] inb_S2048x768_S2048x64_0_192))) (View.ld vs (Rect.unit ![0, 192] ![2048, 64] inb_S2048x768_S2048x64_0_192)))
      (k0_pay40 (k0_pay32 xt wq) (View.ld ks (Rect.unit ![0, 256] ![2048, 64] inb_S2048x768_S2048x64_0_256)) (View.ld vs (Rect.unit ![0, 256] ![2048, 64] inb_S2048x768_S2048x64_0_256)))
      (k0_pay44 (k0_pay41 (k0_pay32 xt wq)) (k0_pay42 (View.ld ks (Rect.unit ![0, 320] ![2048, 64] inb_S2048x768_S2048x64_0_320))) (k0_pay43 (View.ld vs (Rect.unit ![0, 320] ![2048, 64] inb_S2048x768_S2048x64_0_320))))
      (k0_pay45 (k0_pay32 xt wq) (View.ld ks (Rect.unit ![0, 384] ![2048, 64] inb_S2048x768_S2048x64_0_384)) (View.ld vs (Rect.unit ![0, 384] ![2048, 64] inb_S2048x768_S2048x64_0_384)))
      (k0_pay49 (k0_pay46 (View.ld vs (Rect.unit ![0, 448] ![2048, 64] inb_S2048x768_S2048x64_0_448))) (k0_pay47 (k0_pay32 xt wq) (View.ld ks (Rect.unit ![0, 448] ![2048, 64] inb_S2048x768_S2048x64_0_448))) k0_pay48)
      (k0_pay50 (k0_pay32 xt wq) (View.ld ks (Rect.unit ![0, 512] ![2048, 64] inb_S2048x768_S2048x64_0_512)) (View.ld vs (Rect.unit ![0, 512] ![2048, 64] inb_S2048x768_S2048x64_0_512)))
      (k0_pay54 (k0_pay51 (View.ld vs (Rect.unit ![0, 576] ![2048, 64] inb_S2048x768_S2048x64_0_576))) (k0_pay52 (k0_pay32 xt wq) (View.ld ks (Rect.unit ![0, 576] ![2048, 64] inb_S2048x768_S2048x64_0_576))) (k0_pay53 (k0_pay32 xt wq) (View.ld ks (Rect.unit ![0, 576] ![2048, 64] inb_S2048x768_S2048x64_0_576))))
      (k0_pay55 (k0_pay32 xt wq) (View.ld ks (Rect.unit ![0, 640] ![2048, 64] inb_S2048x768_S2048x64_0_640)) (View.ld vs (Rect.unit ![0, 640] ![2048, 64] inb_S2048x768_S2048x64_0_640)))
      (k0_pay56 (View.ld vs (Rect.unit ![0, 704] ![2048, 64] inb_S2048x768_S2048x64_0_704)))
      (k0_pay57 (k0_pay32 xt wq) (View.ld ks (Rect.unit ![0, 704] ![2048, 64] inb_S2048x768_S2048x64_0_704)))
      wp bp

end Cert.KernelIdeal.Tile

end
-- ==== Proof.KernelCases.lean ====
/-
  What each control case of the body leaves in the four output blocks, as vector functions of the blocks it was
  given. At the first point of a batch the body first fills the key and value buffers and then reads them back; at
  every other point it reads what the point before left there.
-/
import proofs.«148277_j16887811408512_2_alg».proof.Proof.KernelTile

noncomputable section

open Idealize.ShloMosaic Idealize.ShloMosaic.TcCoe Idealize.SL.Sem

namespace Cert.KernelIdeal.Tile

open Cert.KernelIdeal Cert.KernelIdeal.Gen Cert.Attn

variable {F : FTy → Type} [FloatOps F]

/-! ## A later point of a batch -/

set_option maxHeartbeats 1000000 in
theorem out6_B (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : ¬cond0_0 i) (x0 : Vec F S1x2048x768 .f32) (x1 : Vec F S768x768 .bf16) (x2 : Vec F S768x768 .bf16) (x3 : Vec F S768x768 .bf16) (x4 : Vec F S768x768 .bf16) (x5 : Vec F S1x768 .f32) (xs0 : Vec F S2048x768 .f32) (xs1 : Vec F S2048x768 .f32) :
    out0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 = tileVec (View.ld x0 (Rect.unit (k0_off3 i) S1x256x768.size (k0_off3_inb i))) x1 x4 x5 xs0 xs1 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg12.read_unread, harg13.read_unread, View.ld_unit_zero (S := S768x768) hz2, View.ld_unit_zero (S := S1x768) hz2]
  all_goals rfl

set_option maxHeartbeats 1000000 in
theorem out7_B (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : ¬cond0_0 i) (x0 : Vec F S1x2048x768 .f32) (x1 : Vec F S768x768 .bf16) (x2 : Vec F S768x768 .bf16) (x3 : Vec F S768x768 .bf16) (x4 : Vec F S768x768 .bf16) (x5 : Vec F S1x768 .f32) (xs0 : Vec F S2048x768 .f32) (xs1 : Vec F S2048x768 .f32) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 = k0_pay31 (View.ld x0 (Rect.unit (k0_off3 i) S1x256x768.size (k0_off3_inb i))) x1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg12.read_unread, harg13.read_unread, View.ld_unit_zero (S := S768x768) hz2, View.ld_unit_zero (S := S1x768) hz2]
  all_goals rfl

set_option maxHeartbeats 1000000 in
theorem out8_B (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : ¬cond0_0 i) (x0 : Vec F S1x2048x768 .f32) (x1 : Vec F S768x768 .bf16) (x2 : Vec F S768x768 .bf16) (x3 : Vec F S768x768 .bf16) (x4 : Vec F S768x768 .bf16) (x5 : Vec F S1x768 .f32) (xs0 : Vec F S2048x768 .f32) (xs1 : Vec F S2048x768 .f32) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 = k0_pay2 (View.ld xs0 (Rect.unit (k0_off4 i) S256x768.size (k0_off4_inb i))) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg12.read_unread, harg13.read_unread, View.ld_unit_zero (S := S768x768) hz2, View.ld_unit_zero (S := S1x768) hz2]
  all_goals rfl

set_option maxHeartbeats 1000000 in
theorem out9_B (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : ¬cond0_0 i) (x0 : Vec F S1x2048x768 .f32) (x1 : Vec F S768x768 .bf16) (x2 : Vec F S768x768 .bf16) (x3 : Vec F S768x768 .bf16) (x4 : Vec F S768x768 .bf16) (x5 : Vec F S1x768 .f32) (xs0 : Vec F S2048x768 .f32) (xs1 : Vec F S2048x768 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 = k0_pay3 (View.ld xs1 (Rect.unit (k0_off4 i) S256x768.size (k0_off4_inb i))) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg12.read_unread, harg13.read_unread, View.ld_unit_zero (S := S768x768) hz2, View.ld_unit_zero (S := S1x768) hz2]
  all_goals rfl

/-! ## The first point of a batch: the buffers read are the ones this body wrote -/

set_option maxHeartbeats 2000000 in
theorem out6_A (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : cond0_0 i) (x0 : Vec F S1x2048x768 .f32) (x1 : Vec F S768x768 .bf16) (x2 : Vec F S768x768 .bf16) (x3 : Vec F S768x768 .bf16) (x4 : Vec F S768x768 .bf16) (x5 : Vec F S1x768 .f32) :
    out0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5 = tileVec (View.ld x0 (Rect.unit (k0_off3 i) S1x256x768.size (k0_off3_inb i))) x1 x4 x5 (sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5) (sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5) := by
  unfold out0_A_6 sout0_A_0 sout0_A_1
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5), View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5),
    View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg12.read_unread, harg13.read_unread, View.ld_unit_zero (S := S768x768) hz2, View.ld_unit_zero (S := S1x768) hz2, View.readCov_eq_canon']
  all_goals rfl

set_option maxHeartbeats 1000000 in
theorem out7_A (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : cond0_0 i) (x0 : Vec F S1x2048x768 .f32) (x1 : Vec F S768x768 .bf16) (x2 : Vec F S768x768 .bf16) (x3 : Vec F S768x768 .bf16) (x4 : Vec F S768x768 .bf16) (x5 : Vec F S1x768 .f32) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 = k0_pay31 (View.ld x0 (Rect.unit (k0_off3 i) S1x256x768.size (k0_off3_inb i))) x1 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg12.read_unread, harg13.read_unread, View.ld_unit_zero (S := S768x768) hz2, View.ld_unit_zero (S := S1x768) hz2]
  all_goals rfl

set_option maxHeartbeats 2000000 in
theorem out8_A (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : cond0_0 i) (x0 : Vec F S1x2048x768 .f32) (x1 : Vec F S768x768 .bf16) (x2 : Vec F S768x768 .bf16) (x3 : Vec F S768x768 .bf16) (x4 : Vec F S768x768 .bf16) (x5 : Vec F S1x768 .f32) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 = k0_pay2 (View.ld (sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5) (Rect.unit (k0_off4 i) S256x768.size (k0_off4_inb i))) := by
  unfold out0_A_8 sout0_A_0
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5), View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5)]
  have hcov := scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5
  revert hcov
  unfold kernelRun0_A
  dsimp only
  sl_unfold_words
  rw [View.canon_unit_zero hz3]
  simp only [View.readAt_eq_ld, harg2.read_unread, harg3.read_unread, harg4.read_unread, harg5.read_unread, harg6.read_unread, harg7.read_unread, harg12.read_unread, harg13.read_unread, View.ld_unit_zero (S := S768x768) hz2, View.ld_unit_zero (S := S1x768) hz2, View.readCov_eq_canon']
  intro hcov
  rw [View.read_writes_eq_canon _ _ _ hcov]
  all_goals rfl

set_option maxHeartbeats 2000000 in
theorem out9_A (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : cond0_0 i) (x0 : Vec F S1x2048x768 .f32) (x1 : Vec F S768x768 .bf16) (x2 : Vec F S768x768 .bf16) (x3 : Vec F S768x768 .bf16) (x4 : Vec F S768x768 .bf16) (x5 : Vec F S1x768 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 = k0_pay3 (View.ld (sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5) (Rect.unit (k0_off4 i) S256x768.size (k0_off4_inb i))) := by
  unfold out0_A_9 sout0_A_1
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5), View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5)]
  have hcov := scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5
  revert hcov
  unfold kernelRun0_A
  dsimp only
  sl_unfold_words
  rw [View.canon_unit_zero hz3]
  simp only [View.readAt_eq_ld, harg2.read_unread, harg3.read_unread, harg4.read_unread, harg5.read_unread, harg6.read_unread, harg7.read_unread, harg12.read_unread, harg13.read_unread, View.ld_unit_zero (S := S768x768) hz2, View.ld_unit_zero (S := S1x768) hz2, View.readCov_eq_canon']
  intro hcov
  rw [View.read_writes_eq_canon _ _ _ hcov]
  all_goals rfl

end Cert.KernelIdeal.Tile

end
-- ==== Proof.AttnSpec.lean ====
/-
  Multi-head self-attention with a fused input projection and an output projection, as functions of the four
  arguments, index by index over the extended reals.

  The input x is [4, 2048, 768]; W is the fused [2304, 768] projection whose rows 0–767, 768–1535, 1536–2303 give
  the queries, keys and values; the 768 columns of each part are 12 heads of width 64. For batch b, row n and head h
  the scaled scores against every key row m are softmax-normalised and weight the value rows; the heads are laid side
  by side (column c belongs to head c / 64, offset c % 64) and multiplied by the output weights P, plus the bias.
-/
import proofs.«148277_j16887811408512_2_alg».proof.Proof.AttnHead

noncomputable section

namespace Cert.Attn

open Idealize.ShloMosaic Idealize.ShloMosaic.ValueIdx

abbrev SX : Shape := ⟨3, ![4, 2048, 768]⟩
abbrev SW : Shape := ⟨2, ![2304, 768]⟩
abbrev SP : Shape := ⟨2, ![768, 768]⟩
abbrev SB : Shape := ⟨1, ![768]⟩

/-- Entry (b, n, j) of the fused projection: row n of batch b against row j of W. -/
def projAt (x : SX.Idx → EReal) (W : SW.Idx → EReal) (b : Fin 4) (n : Fin 2048) (j : Fin 2304) : EReal :=
  ∑ c : Fin 768, x (ix3 b n c) * W (ix2 j c)

theorem projAt_congr (x : SX.Idx → EReal) (W : SW.Idx → EReal) (b : Fin 4) (n : Fin 2048) {j j' : Fin 2304} (h : j.val = j'.val) :
    projAt x W b n j = projAt x W b n j' := by rw [Fin.ext h]

theorem projAt_eq (x : SX.Idx → EReal) (W : SW.Idx → EReal) {b b' : Fin 4} {n n' : Fin 2048} {j j' : Fin 2304}
    (hb : b.val = b'.val) (hn : n.val = n'.val) (hj : j.val = j'.val) : projAt x W b n j = projAt x W b' n' j' := by
  rw [Fin.ext hb, Fin.ext hn, Fin.ext hj]

/-- The projection's column for part s (0 queries, 1 keys, 2 values), head h, offset d. -/
def col (s : Fin 3) (h : Fin 12) (d : Fin 64) : Fin 2304 :=
  ⟨768 * s.val + 64 * h.val + d.val, by have := s.isLt; have := h.isLt; have := d.isLt; omega⟩

/-- The head a column of the concatenated heads belongs to, and its offset there. -/
def headOf (c : Fin 768) : Fin 12 := ⟨c.val / 64, by have := c.isLt; omega⟩
def offOf (c : Fin 768) : Fin 64 := ⟨c.val % 64, Nat.mod_lt _ (by decide)⟩

/-- Column c of the concatenated head outputs at (b, n). -/
def catAt (x : SX.Idx → EReal) (W : SW.Idx → EReal) (b : Fin 4) (n : Fin 2048) (c : Fin 768) : EReal :=
  headAt (fun d => projAt x W b n (col 0 (headOf c) d)) (fun m d => projAt x W b m (col 1 (headOf c) d))
    (fun m => projAt x W b m (col 2 (headOf c) (offOf c)))

/-- The attention output at (b, n, e). -/
def outAt (x : SX.Idx → EReal) (W : SW.Idx → EReal) (P : SP.Idx → EReal) (bp : SB.Idx → EReal) (b : Fin 4) (n : Fin 2048)
    (e : Fin 768) : EReal :=
  (∑ c : Fin 768, catAt x W b n c * P (ix2 e c)) + bp (ix1 e)

/-- Part s of the projection at (b, n, e). -/
def partAt (x : SX.Idx → EReal) (W : SW.Idx → EReal) (s : Fin 3) (b : Fin 4) (n : Fin 2048) (e : Fin 768) : EReal :=
  projAt x W b n ⟨768 * s.val + e.val, by have := s.isLt; have := e.isLt; omega⟩

/-- The four results as whole arrays. -/
def outArr (x : SX.Idx → EReal) (W : SW.Idx → EReal) (P : SP.Idx → EReal) (bp : SB.Idx → EReal) : SX.Idx → EReal :=
  fun i => outAt x W P bp (i 0) (i 1) (i 2)
def partArr (x : SX.Idx → EReal) (W : SW.Idx → EReal) (s : Fin 3) : SX.Idx → EReal :=
  fun i => partAt x W s (i 0) (i 1) (i 2)

/-! ## Twelve [256, 64] pieces side by side, read at a column -/

section Concat
variable {α : Type}

/-- Pieces of one shape set side by side along the columns: column c of the result is column c % 64 of piece c / 64. -/
theorem concat12_apply (o : Fin 12 → (Tq.Idx → α))
    (h : Shape.Concatenates [Tq, Tq, Tq, Tq, Tq, Tq, Tq, Tq, Tq, Tq, Tq, Tq] ⟨2, ![256, 768]⟩ 1) (p : Fin 256) (c : Fin 768) :
    concatenate ⟨2, ![256, 768]⟩ 1 [⟨Tq, o 0⟩, ⟨Tq, o 1⟩, ⟨Tq, o 2⟩, ⟨Tq, o 3⟩, ⟨Tq, o 4⟩, ⟨Tq, o 5⟩, ⟨Tq, o 6⟩, ⟨Tq, o 7⟩, ⟨Tq, o 8⟩,
      ⟨Tq, o 9⟩, ⟨Tq, o 10⟩, ⟨Tq, o 11⟩] h (ix2 p c) = o (headOf c) (ix2 p (offOf c)) := by
  refine concatenate_ofFn_apply (t := ⟨2, ![256, 768]⟩) (s₁ := Tq) 1 o h rfl 64 rfl (ix2 p c) (headOf c) rfl (ix2 p (offOf c)) rfl ?_
  intro b hb
  match b with
  | ⟨0, _⟩ => rfl
  | ⟨1, _⟩ => exact absurd rfl hb

end Concat

end Cert.Attn

end
-- ==== Proof.KernelValues.lean ====
/-
  The tile's values at the ideal instance, index by index.

  A row block of the input times a weight matrix is a plain sum over the 768 input features; a head is the
  softmax-weighted sum of the head's value columns; the finished tile is, at row p and column e, the sum over the 768
  concatenated head columns c of head c / 64 at offset c % 64 times the output weight (c, e), plus the bias entry e.
  The key and value buffers filled by eight stores of 256 rows hold, at (m, e), row m of the batch against column e of
  the weights.
-/
import proofs.«148277_j16887811408512_2_alg».proof.Proof.KernelCases
import proofs.«148277_j16887811408512_2_alg».proof.Proof.AttnSpec
import Idealize.ShloMosaic.Lib.ValueLayout

noncomputable section

open Idealize.ShloMosaic Idealize.ShloMosaic.TcCoe Idealize.SL.Sem

namespace Cert.KernelIdeal.Tile

open Cert.KernelIdeal Cert.KernelIdeal.Gen Cert.Attn Idealize.ShloMosaic.ValueIdx

/-! ## Loads through a rectangle, at an index -/

section Loads
variable {Val : EltTy → Type} {e : EltTy}

theorem ld2_apply {n0 n1 m0 m1 : Nat} (X : (⟨2, ![n0, n1]⟩ : Shape).Idx → Val e) (o0 o1 : Nat)
    (inb : ∀ a, (![o0, o1] : Fin 2 → Nat) a + (![m0, m1] : Fin 2 → Nat) a ≤ (⟨2, ![n0, n1]⟩ : Shape).size a)
    (a : Fin m0) (b : Fin m1) (k0 : Fin n0) (k1 : Fin n1) (h0 : k0.val = o0 + a.val) (h1 : k1.val = o1 + b.val) :
    View.ld X (Rect.unit (s := ⟨2, ![n0, n1]⟩) ![o0, o1] ![m0, m1] inb) (ix2 a b) = X (ix2 k0 k1) := by
  show X ((Rect.unit (s := ⟨2, ![n0, n1]⟩) ![o0, o1] ![m0, m1] inb).idx (ix2 a b)) = X (ix2 k0 k1)
  refine congrArg X (funext fun ax => Fin.ext ?_)
  match ax with
  | ⟨0, _⟩ => show o0 + 1 * a.val = k0.val; omega
  | ⟨1, _⟩ => show o1 + 1 * b.val = k1.val; omega

theorem ld3_apply {n0 n1 n2 m0 m1 m2 : Nat} (X : (⟨3, ![n0, n1, n2]⟩ : Shape).Idx → Val e) (o0 o1 o2 : Nat)
    (inb : ∀ a, (![o0, o1, o2] : Fin 3 → Nat) a + (![m0, m1, m2] : Fin 3 → Nat) a ≤ (⟨3, ![n0, n1, n2]⟩ : Shape).size a)
    (a : Fin m0) (b : Fin m1) (c : Fin m2) (k0 : Fin n0) (k1 : Fin n1) (k2 : Fin n2)
    (h0 : k0.val = o0 + a.val) (h1 : k1.val = o1 + b.val) (h2 : k2.val = o2 + c.val) :
    View.ld X (Rect.unit (s := ⟨3, ![n0, n1, n2]⟩) ![o0, o1, o2] ![m0, m1, m2] inb) (ix3 a b c) = X (ix3 k0 k1 k2) := by
  show X ((Rect.unit (s := ⟨3, ![n0, n1, n2]⟩) ![o0, o1, o2] ![m0, m1, m2] inb).idx (ix3 a b c)) = X (ix3 k0 k1 k2)
  refine congrArg X (funext fun ax => Fin.ext ?_)
  match ax with
  | ⟨0, _⟩ => show o0 + 1 * a.val = k0.val; omega
  | ⟨1, _⟩ => show o1 + 1 * b.val = k1.val; omega
  | ⟨2, _⟩ => show o2 + 1 * c.val = k2.val; omega

end Loads

/-! ## A row block times a weight matrix -/

/-- Row p of a [1, 256, 768] block against column e of a [768, 768] matrix. -/
theorem pay30_apply (xt : Vec Ideal S1x256x768 .f32) (w : Vec Ideal S768x768 .bf16) (p : Fin 256) (e : Fin 768) :
    k0_pay30 xt w (ix2 p e) = ∑ c : Fin 768, xt (ix3 (0 : Fin 1) p c) * w (ix2 c e) := by
  unfold k0_pay30
  refine (Cert.LibPlainDot.plain_matmul_apply (M := 256) (K := 768) (N := 768) none _ _ (ix2 p e)).trans ?_
  refine Finset.sum_congr rfl fun c _ => ?_
  show shapeCast S256x768 xt shapeCasts_S1x256x768_S256x768 (ix2 p c) * shapeCast S768x768 w shapeCasts_S768x768_S768x768 (ix2 c e) = _
  rw [shapeCast_1ab_ab_apply, shapeCast_self]

/-! ## A head on a block of 64 columns -/

theorem hv_apply (q : FVec Ideal S256x768 .bf16) (ks vs : Vec Ideal S2048x768 .f32) (o : Nat) (ho : o + 64 ≤ 768)
    (hs : S256x768.Slices ![0, o] S256x64)
    (inb : ∀ a, (![0, o] : Fin 2 → Nat) a + (![2048, 64] : Fin 2 → Nat) a ≤ S2048x768.size a) (p : Fin 256) (d : Fin 64) :
    hv (extractStridedSlice S256x64 ![0, o] q hs) (View.ld ks (Rect.unit ![0, o] ![2048, 64] inb))
        (View.ld vs (Rect.unit ![0, o] ![2048, 64] inb)) (ix2 p d)
      = headAt (fun d' => q (ix2 p ⟨o + d'.val, by have := d'.isLt; omega⟩))
          (fun m d' => ks (ix2 m ⟨o + d'.val, by have := d'.isLt; omega⟩))
          (fun m => vs (ix2 m ⟨o + d.val, by have := d.isLt; omega⟩)) := by
  unfold hv
  refine (headVec_apply _ _ _ _ _ _ p d).trans ?_
  have e1 : (fun d' : Fin 64 => extractStridedSlice S256x64 ![0, o] q hs (ix2 p d'))
      = fun d' => q (ix2 p ⟨o + d'.val, by have := d'.isLt; omega⟩) :=
    funext fun d' => slice2_axis1_apply o q hs p d' _ rfl
  have e2 : (fun (m : Fin 2048) (d' : Fin 64) => View.ld ks (Rect.unit ![0, o] ![2048, 64] inb) (ix2 m d'))
      = fun m d' => ks (ix2 m ⟨o + d'.val, by have := d'.isLt; omega⟩) :=
    funext fun m => funext fun d' => ld2_apply ks 0 o inb m d' m _ (by omega) rfl
  have e3 : (fun m : Fin 2048 => View.ld vs (Rect.unit ![0, o] ![2048, 64] inb) (ix2 m d))
      = fun m => vs (ix2 m ⟨o + d.val, by have := d.isLt; omega⟩) :=
    funext fun m => ld2_apply vs 0 o inb m d m _ (by omega) rfl
  exact congr (congr (congrArg headAt e1) e2) e3

/-! ## The finished tile -/

variable {F : FTy → Type} [FloatOps F]

/-- The tile is the twelve heads of the projected query rows, finished. -/
theorem tileVec_eq (xt : Vec F S1x256x768 .f32) (wq wp : Vec F S768x768 .bf16) (bp : Vec F S1x768 .f32) (ks vs : Vec F S2048x768 .f32) :
    tileVec xt wq wp bp ks vs = finish
      (hv (extractStridedSlice S256x64 ![0, 0] (k0_pay32 xt wq) slices_S256x768_o0_0_S256x64) (View.ld ks (Rect.unit ![0, 0] ![2048, 64] inb_S2048x768_S2048x64_0_0)) (View.ld vs (Rect.unit ![0, 0] ![2048, 64] inb_S2048x768_S2048x64_0_0)))
      (hv (extractStridedSlice S256x64 ![0, 64] (k0_pay32 xt wq) slices_S256x768_o0_64_S256x64) (View.ld ks (Rect.unit ![0, 64] ![2048, 64] inb_S2048x768_S2048x64_0_64)) (View.ld vs (Rect.unit ![0, 64] ![2048, 64] inb_S2048x768_S2048x64_0_64)))
      (hv (extractStridedSlice S256x64 ![0, 128] (k0_pay32 xt wq) slices_S256x768_o0_128_S256x64) (View.ld ks (Rect.unit ![0, 128] ![2048, 64] inb_S2048x768_S2048x64_0_128)) (View.ld vs (Rect.unit ![0, 128] ![2048, 64] inb_S2048x768_S2048x64_0_128)))
      (hv (extractStridedSlice S256x64 ![0, 192] (k0_pay32 xt wq) slices_S256x768_o0_192_S256x64) (View.ld ks (Rect.unit ![0, 192] ![2048, 64] inb_S2048x768_S2048x64_0_192)) (View.ld vs (Rect.unit ![0, 192] ![2048, 64] inb_S2048x768_S2048x64_0_192)))
      (hv (extractStridedSlice S256x64 ![0, 256] (k0_pay32 xt wq) slices_S256x768_o0_256_S256x64) (View.ld ks (Rect.unit ![0, 256] ![2048, 64] inb_S2048x768_S2048x64_0_256)) (View.ld vs (Rect.unit ![0, 256] ![2048, 64] inb_S2048x768_S2048x64_0_256)))
      (hv (extractStridedSlice S256x64 ![0, 320] (k0_pay32 xt wq) slices_S256x768_o0_320_S256x64) (View.ld ks (Rect.unit ![0, 320] ![2048, 64] inb_S2048x768_S2048x64_0_320)) (View.ld vs (Rect.unit ![0, 320] ![2048, 64] inb_S2048x768_S2048x64_0_320)))
      (hv (extractStridedSlice S256x64 ![0, 384] (k0_pay32 xt wq) slices_S256x768_o0_384_S256x64) (View.ld ks (Rect.unit ![0, 384] ![2048, 64] inb_S2048x768_S2048x64_0_384)) (View.ld vs (Rect.unit ![0, 384] ![2048, 64] inb_S2048x768_S2048x64_0_384)))
      (hv (extractStridedSlice S256x64 ![0, 448] (k0_pay32 xt wq) slices_S256x768_o0_448_S256x64) (View.ld ks (Rect.unit ![0, 448] ![2048, 64] inb_S2048x768_S2048x64_0_448)) (View.ld vs (Rect.unit ![0, 448] ![2048, 64] inb_S2048x768_S2048x64_0_448)))
      (hv (extractStridedSlice S256x64 ![0, 512] (k0_pay32 xt wq) slices_S256x768_o0_512_S256x64) (View.ld ks (Rect.unit ![0, 512] ![2048, 64] inb_S2048x768_S2048x64_0_512)) (View.ld vs (Rect.unit ![0, 512] ![2048, 64] inb_S2048x768_S2048x64_0_512)))
      (hv (extractStridedSlice S256x64 ![0, 576] (k0_pay32 xt wq) slices_S256x768_o0_576_S256x64) (View.ld ks (Rect.unit ![0, 576] ![2048, 64] inb_S2048x768_S2048x64_0_576)) (View.ld vs (Rect.unit ![0, 576] ![2048, 64] inb_S2048x768_S2048x64_0_576)))
      (hv (extractStridedSlice S256x64 ![0, 640] (k0_pay32 xt wq) slices_S256x768_o0_640_S256x64) (View.ld ks (Rect.unit ![0, 640] ![2048, 64] inb_S2048x768_S2048x64_0_640)) (View.ld vs (Rect.unit ![0, 640] ![2048, 64] inb_S2048x768_S2048x64_0_640)))
      (hv (extractStridedSlice S256x64 ![0, 704] (k0_pay32 xt wq) slices_S256x768_o0_704_S256x64) (View.ld ks (Rect.unit ![0, 704] ![2048, 64] inb_S2048x768_S2048x64_0_704)) (View.ld vs (Rect.unit ![0, 704] ![2048, 64] inb_S2048x768_S2048x64_0_704)))
      wp bp := by
  unfold tileVec
  rw [head0, head1, head2, head3, head4, head5, head6, head7, head8, head9, head10, last_head]

theorem finish_apply (o0 o1 o2 o3 o4 o5 o6 o7 o8 o9 o10 o11 : FVec Ideal S256x64 .f32) (wp : Vec Ideal S768x768 .bf16)
    (bp : Vec Ideal S1x768 .f32) (u : Fin 1) (p : Fin 256) (e : Fin 768) :
    finish o0 o1 o2 o3 o4 o5 o6 o7 o8 o9 o10 o11 wp bp (ix3 u p e)
      = (∑ c : Fin 768, (![o0, o1, o2, o3, o4, o5, o6, o7, o8, o9, o10, o11] : Fin 12 → FVec Ideal S256x64 .f32) (headOf c) (ix2 p (offOf c)) * wp (ix2 c e))
        + bp (ix2 (0 : Fin 1) e) := by
  unfold finish
  rw [shapeCast_ab_1ab_apply]
  show FloatOps.matmul _ none _ _ _ (ix2 p e) + broadcastTo S256x768 _ broadcasts_S1x768_S256x768 (ix2 p e) = _
  rw [broadcastTo_1b_ab_apply]
  simp only [shapeCast_self]
  refine congrArg₂ (· + ·) ?_ rfl
  refine (Cert.LibPlainDot.plain_matmul_apply (M := 256) (K := 768) (N := 768) (φ₁ := .bf16) (φ₂ := .bf16) none _ _ (ix2 p e)).trans ?_
  refine Finset.sum_congr rfl fun c _ => ?_
  refine congrArg₂ (· * ·) ?_ rfl
  exact concat12_apply ![o0, o1, o2, o3, o4, o5, o6, o7, o8, o9, o10, o11]
    concatenates_S256x64_S256x64_S256x64_S256x64_S256x64_S256x64_S256x64_S256x64_S256x64_S256x64_S256x64_S256x64_S256x768_d1 p c

/-- Head h of the twelve, at (p, d). -/
theorem heads_apply (xt : Vec Ideal S1x256x768 .f32) (wq : Vec Ideal S768x768 .bf16) (ks vs : Vec Ideal S2048x768 .f32)
    (h : Fin 12) (d : Fin 64) (p : Fin 256) :
    (![hv (extractStridedSlice S256x64 ![0, 0] (k0_pay32 xt wq) slices_S256x768_o0_0_S256x64) (View.ld ks (Rect.unit ![0, 0] ![2048, 64] inb_S2048x768_S2048x64_0_0)) (View.ld vs (Rect.unit ![0, 0] ![2048, 64] inb_S2048x768_S2048x64_0_0)),
       hv (extractStridedSlice S256x64 ![0, 64] (k0_pay32 xt wq) slices_S256x768_o0_64_S256x64) (View.ld ks (Rect.unit ![0, 64] ![2048, 64] inb_S2048x768_S2048x64_0_64)) (View.ld vs (Rect.unit ![0, 64] ![2048, 64] inb_S2048x768_S2048x64_0_64)),
       hv (extractStridedSlice S256x64 ![0, 128] (k0_pay32 xt wq) slices_S256x768_o0_128_S256x64) (View.ld ks (Rect.unit ![0, 128] ![2048, 64] inb_S2048x768_S2048x64_0_128)) (View.ld vs (Rect.unit ![0, 128] ![2048, 64] inb_S2048x768_S2048x64_0_128)),
       hv (extractStridedSlice S256x64 ![0, 192] (k0_pay32 xt wq) slices_S256x768_o0_192_S256x64) (View.ld ks (Rect.unit ![0, 192] ![2048, 64] inb_S2048x768_S2048x64_0_192)) (View.ld vs (Rect.unit ![0, 192] ![2048, 64] inb_S2048x768_S2048x64_0_192)),
       hv (extractStridedSlice S256x64 ![0, 256] (k0_pay32 xt wq) slices_S256x768_o0_256_S256x64) (View.ld ks (Rect.unit ![0, 256] ![2048, 64] inb_S2048x768_S2048x64_0_256)) (View.ld vs (Rect.unit ![0, 256] ![2048, 64] inb_S2048x768_S2048x64_0_256)),
       hv (extractStridedSlice S256x64 ![0, 320] (k0_pay32 xt wq) slices_S256x768_o0_320_S256x64) (View.ld ks (Rect.unit ![0, 320] ![2048, 64] inb_S2048x768_S2048x64_0_320)) (View.ld vs (Rect.unit ![0, 320] ![2048, 64] inb_S2048x768_S2048x64_0_320)),
       hv (extractStridedSlice S256x64 ![0, 384] (k0_pay32 xt wq) slices_S256x768_o0_384_S256x64) (View.ld ks (Rect.unit ![0, 384] ![2048, 64] inb_S2048x768_S2048x64_0_384)) (View.ld vs (Rect.unit ![0, 384] ![2048, 64] inb_S2048x768_S2048x64_0_384)),
       hv (extractStridedSlice S256x64 ![0, 448] (k0_pay32 xt wq) slices_S256x768_o0_448_S256x64) (View.ld ks (Rect.unit ![0, 448] ![2048, 64] inb_S2048x768_S2048x64_0_448)) (View.ld vs (Rect.unit ![0, 448] ![2048, 64] inb_S2048x768_S2048x64_0_448)),
       hv (extractStridedSlice S256x64 ![0, 512] (k0_pay32 xt wq) slices_S256x768_o0_512_S256x64) (View.ld ks (Rect.unit ![0, 512] ![2048, 64] inb_S2048x768_S2048x64_0_512)) (View.ld vs (Rect.unit ![0, 512] ![2048, 64] inb_S2048x768_S2048x64_0_512)),
       hv (extractStridedSlice S256x64 ![0, 576] (k0_pay32 xt wq) slices_S256x768_o0_576_S256x64) (View.ld ks (Rect.unit ![0, 576] ![2048, 64] inb_S2048x768_S2048x64_0_576)) (View.ld vs (Rect.unit ![0, 576] ![2048, 64] inb_S2048x768_S2048x64_0_576)),
       hv (extractStridedSlice S256x64 ![0, 640] (k0_pay32 xt wq) slices_S256x768_o0_640_S256x64) (View.ld ks (Rect.unit ![0, 640] ![2048, 64] inb_S2048x768_S2048x64_0_640)) (View.ld vs (Rect.unit ![0, 640] ![2048, 64] inb_S2048x768_S2048x64_0_640)),
       hv (extractStridedSlice S256x64 ![0, 704] (k0_pay32 xt wq) slices_S256x768_o0_704_S256x64) (View.ld ks (Rect.unit ![0, 704] ![2048, 64] inb_S2048x768_S2048x64_0_704)) (View.ld vs (Rect.unit ![0, 704] ![2048, 64] inb_S2048x768_S2048x64_0_704))] : Fin 12 → FVec Ideal S256x64 .f32) h (ix2 p d)
      = headAt (fun d' => k0_pay30 xt wq (ix2 p ⟨64 * h.val + d'.val, by have := d'.isLt; have := h.isLt; omega⟩))
          (fun m d' => ks (ix2 m ⟨64 * h.val + d'.val, by have := d'.isLt; have := h.isLt; omega⟩))
          (fun m => vs (ix2 m ⟨64 * h.val + d.val, by have := d.isLt; have := h.isLt; omega⟩)) := by
  fin_cases h
  · exact hv_apply (k0_pay32 xt wq) ks vs 0 (by decide) _ _ p d
  · exact hv_apply (k0_pay32 xt wq) ks vs 64 (by decide) _ _ p d
  · exact hv_apply (k0_pay32 xt wq) ks vs 128 (by decide) _ _ p d
  · exact hv_apply (k0_pay32 xt wq) ks vs 192 (by decide) _ _ p d
  · exact hv_apply (k0_pay32 xt wq) ks vs 256 (by decide) _ _ p d
  · exact hv_apply (k0_pay32 xt wq) ks vs 320 (by decide) _ _ p d
  · exact hv_apply (k0_pay32 xt wq) ks vs 384 (by decide) _ _ p d
  · exact hv_apply (k0_pay32 xt wq) ks vs 448 (by decide) _ _ p d
  · exact hv_apply (k0_pay32 xt wq) ks vs 512 (by decide) _ _ p d
  · exact hv_apply (k0_pay32 xt wq) ks vs 576 (by decide) _ _ p d
  · exact hv_apply (k0_pay32 xt wq) ks vs 640 (by decide) _ _ p d
  · exact hv_apply (k0_pay32 xt wq) ks vs 704 (by decide) _ _ p d

/-- The tile at (p, e): the heads of the projected query rows against the buffers, through the output weights. -/
theorem tileVec_apply (xt : Vec Ideal S1x256x768 .f32) (wq wp : Vec Ideal S768x768 .bf16) (bp : Vec Ideal S1x768 .f32)
    (ks vs : Vec Ideal S2048x768 .f32) (u : Fin 1) (p : Fin 256) (e : Fin 768) :
    tileVec xt wq wp bp ks vs (ix3 u p e)
      = (∑ c : Fin 768,
          headAt (fun d' => k0_pay30 xt wq (ix2 p ⟨64 * (headOf c).val + d'.val, by have := d'.isLt; have := (headOf c).isLt; omega⟩))
            (fun m d' => ks (ix2 m ⟨64 * (headOf c).val + d'.val, by have := d'.isLt; have := (headOf c).isLt; omega⟩))
            (fun m => vs (ix2 m ⟨64 * (headOf c).val + (offOf c).val, by have := (offOf c).isLt; have := (headOf c).isLt; omega⟩))
          * wp (ix2 c e))
        + bp (ix2 (0 : Fin 1) e) := by
  rw [tileVec_eq, finish_apply]
  refine congrArg₂ (· + ·) (Finset.sum_congr rfl fun c _ => congrArg₂ (· * ·) ?_ rfl) rfl
  exact heads_apply xt wq ks vs (headOf c) (offOf c) p

/-- Row m of the batch's input against column e of a weight matrix. -/
def kvAt (x0 : Vec Ideal S1x2048x768 .f32) (w : Vec Ideal S768x768 .bf16) : S2048x768.Idx → EReal :=
  fun y => ∑ c : Fin 768, x0 (ix3 (0 : Fin 1) (y 0) c) * w (ix2 c (y 1))

end Cert.KernelIdeal.Tile

end
-- ==== Proof.KernelBuffers.lean ====
/-
  The key and value buffers after the first point of a batch: filled by eight stores of 256 rows, they hold at (m, e)
  row m of the batch's input against column e of the weights.
-/
import proofs.«148277_j16887811408512_2_alg».proof.Proof.KernelValues

noncomputable section

open Idealize.ShloMosaic Idealize.ShloMosaic.TcCoe Idealize.SL.Sem

namespace Cert.KernelIdeal.Tile

open Cert.KernelIdeal Cert.KernelIdeal.Gen Cert.Attn Idealize.ShloMosaic.ValueIdx

/-! ## The key and value buffers after the eight stores -/

theorem piece_ok (x0 : Vec Ideal S1x2048x768 .f32) (w : Vec Ideal S768x768 .bf16) (o : Nat)
    (inb2 : ∀ a, (![o, 0] : Fin 2 → Nat) a + (![256, 768] : Fin 2 → Nat) a ≤ S2048x768.size a)
    (inb3 : ∀ a, (![0, o, 0] : Fin 3 → Nat) a + (![1, 256, 768] : Fin 3 → Nat) a ≤ S1x2048x768.size a)
    (x : S256x768.Idx) :
    k0_pay30 (View.ld x0 (Rect.unit ![0, o, 0] ![1, 256, 768] inb3)) w x
      = kvAt x0 w ((Rect.unit (s := S2048x768) ![o, 0] ![256, 768] inb2).emb x) := by
  obtain ⟨a, b, rfl⟩ : ∃ (a : Fin 256) (b : Fin 768), x = ix2 a b := ⟨x 0, x 1, eq_ix2 x⟩
  rw [pay30_apply]
  unfold kvAt
  refine Finset.sum_congr rfl fun c _ => ?_
  have hin : o + 256 ≤ 2048 := inb2 0
  have hlt : o + a.val < 2048 := by have := a.isLt; omega
  rw [ld3_apply x0 0 o 0 inb3 (0 : Fin 1) a c (0 : Fin 1) ⟨o + a.val, hlt⟩ c rfl rfl (by omega)]
  have e0 : ((Rect.unit (s := S2048x768) ![o, 0] ![256, 768] inb2).emb (ix2 a b) 0 : Fin 2048) = ⟨o + a.val, hlt⟩ :=
    Fin.ext (by show o + 1 * a.val = o + a.val; omega)
  have e1 : ((Rect.unit (s := S2048x768) ![o, 0] ![256, 768] inb2).emb (ix2 a b) 1 : Fin 768) = b :=
    Fin.ext (by show 0 + 1 * b.val = b.val; omega)
  rw [e0, e1]
  rfl

set_option maxHeartbeats 2000000 in
/-- What the first point of a batch leaves in the key buffer. -/
theorem sout0_A_0_val (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : cond0_0 i) (x0 : Vec Ideal S1x2048x768 .f32) (x1 : Vec Ideal S768x768 .bf16) (x2 : Vec Ideal S768x768 .bf16) (x3 : Vec Ideal S768x768 .bf16) (x4 : Vec Ideal S768x768 .bf16) (x5 : Vec Ideal S1x768 .f32) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 = kvAt x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5)]
  funext y
  refine View.canon_apply_of_pieces (kvAt x0 x2) _ ?_ y (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 y)
  unfold kernelRun0_A
  dsimp only
  sl_unfold_words
  simp only [View.readAt_eq_ld, harg2.read_unread, harg4.read_unread, harg5.read_unread, View.ld_unit_zero (S := S768x768) hz2]
  intro p hp x
  simp only [List.mem_cons, List.not_mem_nil, or_false] at hp
  rcases hp with rfl | rfl | rfl | rfl | rfl | rfl | rfl | rfl
  · exact (congrFun (shapeCast_self _ _) x).trans (piece_ok x0 x2 1792 (by decide) (by decide) x)
  · exact (congrFun (shapeCast_self _ _) x).trans (piece_ok x0 x2 1536 (by decide) (by decide) x)
  · exact (congrFun (shapeCast_self _ _) x).trans (piece_ok x0 x2 1280 (by decide) (by decide) x)
  · exact (congrFun (shapeCast_self _ _) x).trans (piece_ok x0 x2 1024 (by decide) (by decide) x)
  · exact (congrFun (shapeCast_self _ _) x).trans (piece_ok x0 x2 768 (by decide) (by decide) x)
  · exact (congrFun (shapeCast_self _ _) x).trans (piece_ok x0 x2 512 (by decide) (by decide) x)
  · exact (congrFun (shapeCast_self _ _) x).trans (piece_ok x0 x2 256 (by decide) (by decide) x)
  · exact (congrFun (shapeCast_self _ _) x).trans (piece_ok x0 x2 0 (by decide) (by decide) x)

set_option maxHeartbeats 2000000 in
/-- What the first point of a batch leaves in the value buffer. -/
theorem sout0_A_1_val (c : Dev nD) (i : grid0.Coords) (arg2 : Memref sig .tc .vmem S1x2048x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole) (arg11 : Memref sig .tc .vmem S1x256x768 .f32) (harg11 : arg11.IsWhole) (arg12 : Memref sig .tc .vmem S2048x768 .f32) (harg12 : arg12.IsWhole) (arg13 : Memref sig .tc .vmem S2048x768 .f32) (harg13 : arg13.IsWhole) (hc0 : cond0_0 i) (x0 : Vec Ideal S1x2048x768 .f32) (x1 : Vec Ideal S768x768 .bf16) (x2 : Vec Ideal S768x768 .bf16) (x3 : Vec Ideal S768x768 .bf16) (x4 : Vec Ideal S768x768 .bf16) (x5 : Vec Ideal S1x768 .f32) :
    sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 = kvAt x0 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5)]
  funext y
  refine View.canon_apply_of_pieces (kvAt x0 x3) _ ?_ y (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 y)
  unfold kernelRun0_A
  dsimp only
  sl_unfold_words
  simp only [View.readAt_eq_ld, harg2.read_unread, harg4.read_unread, harg5.read_unread, View.ld_unit_zero (S := S768x768) hz2]
  intro p hp x
  simp only [List.mem_cons, List.not_mem_nil, or_false] at hp
  rcases hp with rfl | rfl | rfl | rfl | rfl | rfl | rfl | rfl
  · exact (congrFun (shapeCast_self _ _) x).trans (piece_ok x0 x3 1792 (by decide) (by decide) x)
  · exact (congrFun (shapeCast_self _ _) x).trans (piece_ok x0 x3 1536 (by decide) (by decide) x)
  · exact (congrFun (shapeCast_self _ _) x).trans (piece_ok x0 x3 1280 (by decide) (by decide) x)
  · exact (congrFun (shapeCast_self _ _) x).trans (piece_ok x0 x3 1024 (by decide) (by decide) x)
  · exact (congrFun (shapeCast_self _ _) x).trans (piece_ok x0 x3 768 (by decide) (by decide) x)
  · exact (congrFun (shapeCast_self _ _) x).trans (piece_ok x0 x3 512 (by decide) (by decide) x)
  · exact (congrFun (shapeCast_self _ _) x).trans (piece_ok x0 x3 256 (by decide) (by decide) x)
  · exact (congrFun (shapeCast_self _ _) x).trans (piece_ok x0 x3 0 (by decide) (by decide) x)

end Cert.KernelIdeal.Tile

end
-- ==== Proof.KernelPoint.lean ====
/-
  One grid point's four tiles, when the blocks the body was given are restrictions of the arguments: the attention
  tile is the specification's rows of the point's batch, the query tile is the query projection's rows, and the key and
  value tiles are rows of the buffers.
-/
import proofs.«148277_j16887811408512_2_alg».proof.Proof.KernelValues

noncomputable section

open Idealize.ShloMosaic Idealize.ShloMosaic.TcCoe Idealize.SL.Sem

namespace Cert.KernelIdeal.Tile

open Cert.KernelIdeal Cert.KernelIdeal.Gen Cert.Attn Idealize.ShloMosaic.ValueIdx

/-! ## Loads through a rectangle whose offsets are computed -/

section Loads
variable {Val : EltTy → Type} {e : EltTy}

theorem ldg2_apply {n0 n1 m0 m1 : Nat} (X : (⟨2, ![n0, n1]⟩ : Shape).Idx → Val e) (off : Fin 2 → Nat)
    (inb : ∀ a, off a + (![m0, m1] : Fin 2 → Nat) a ≤ (⟨2, ![n0, n1]⟩ : Shape).size a)
    (a : Fin m0) (b : Fin m1) (k0 : Fin n0) (k1 : Fin n1) (h0 : k0.val = off 0 + a.val) (h1 : k1.val = off 1 + b.val) :
    View.ld X (Rect.unit (s := ⟨2, ![n0, n1]⟩) off ![m0, m1] inb) (ix2 a b) = X (ix2 k0 k1) := by
  show X ((Rect.unit (s := ⟨2, ![n0, n1]⟩) off ![m0, m1] inb).idx (ix2 a b)) = X (ix2 k0 k1)
  refine congrArg X (funext fun ax => Fin.ext ?_)
  match ax with
  | ⟨0, _⟩ => show off 0 + 1 * a.val = k0.val; omega
  | ⟨1, _⟩ => show off 1 + 1 * b.val = k1.val; omega

theorem ldg3_apply {n0 n1 n2 m0 m1 m2 : Nat} (X : (⟨3, ![n0, n1, n2]⟩ : Shape).Idx → Val e) (off : Fin 3 → Nat)
    (inb : ∀ a, off a + (![m0, m1, m2] : Fin 3 → Nat) a ≤ (⟨3, ![n0, n1, n2]⟩ : Shape).size a)
    (a : Fin m0) (b : Fin m1) (c : Fin m2) (k0 : Fin n0) (k1 : Fin n1) (k2 : Fin n2)
    (h0 : k0.val = off 0 + a.val) (h1 : k1.val = off 1 + b.val) (h2 : k2.val = off 2 + c.val) :
    View.ld X (Rect.unit (s := ⟨3, ![n0, n1, n2]⟩) off ![m0, m1, m2] inb) (ix3 a b c) = X (ix3 k0 k1 k2) := by
  show X ((Rect.unit (s := ⟨3, ![n0, n1, n2]⟩) off ![m0, m1, m2] inb).idx (ix3 a b c)) = X (ix3 k0 k1 k2)
  refine congrArg X (funext fun ax => Fin.ext ?_)
  match ax with
  | ⟨0, _⟩ => show off 0 + 1 * a.val = k0.val; omega
  | ⟨1, _⟩ => show off 1 + 1 * b.val = k1.val; omega
  | ⟨2, _⟩ => show off 2 + 1 * c.val = k2.val; omega

end Loads

/-! ## One point's four tiles, from blocks that are restrictions of the arguments -/

section Point
variable (X : SX.Idx → EReal) (W : SW.Idx → EReal) (P : SP.Idx → EReal) (B : SB.Idx → EReal)
variable (xb : Vec Ideal S1x2048x768 .f32) (wq wk wv wp : Vec Ideal S768x768 .bf16) (bp : Vec Ideal S1x768 .f32)
variable (b : Fin 4)
variable (hx : ∀ (n : Fin 2048) (cc : Fin 768), xb (ix3 (0 : Fin 1) n cc) = X (ix3 b n cc))
variable (hq : ∀ (cc e : Fin 768), wq (ix2 cc e) = W (ix2 ⟨e.val, by have := e.isLt; omega⟩ cc))
variable (hk : ∀ (cc e : Fin 768), wk (ix2 cc e) = W (ix2 ⟨768 + e.val, by have := e.isLt; omega⟩ cc))
variable (hv : ∀ (cc e : Fin 768), wv (ix2 cc e) = W (ix2 ⟨1536 + e.val, by have := e.isLt; omega⟩ cc))
variable (hp : ∀ (cc e : Fin 768), wp (ix2 cc e) = P (ix2 e cc))
variable (hb : ∀ e : Fin 768, bp (ix2 (0 : Fin 1) e) = B (ix1 e))

include hx in
/-- A row of the batch's block against a weight matrix that is part s of the fused weights, transposed. -/
theorem rows_part (w : Vec Ideal S768x768 .bf16) (s : Fin 3)
    (hw : ∀ (cc e : Fin 768), w (ix2 cc e) = W (ix2 ⟨768 * s.val + e.val, by have := e.isLt; have := s.isLt; omega⟩ cc))
    (n : Fin 2048) (e : Fin 768) :
    (∑ cc : Fin 768, xb (ix3 (0 : Fin 1) n cc) * w (ix2 cc e)) = partAt X W s b n e := by
  unfold partAt projAt
  exact Finset.sum_congr rfl fun cc _ => by rw [hx, hw]

include hx hk in
theorem kv_key (m : Fin 2048) (e : Fin 768) : kvAt xb wk (ix2 m e) = partAt X W 1 b m e :=
  rows_part X W xb b hx wk 1 (fun cc e => (hk cc e).trans (congrArg W (congrArg (ix2 · cc) (Fin.ext (by simp))))) m e

include hx hv in
theorem kv_val (m : Fin 2048) (e : Fin 768) : kvAt xb wv (ix2 m e) = partAt X W 2 b m e :=
  rows_part X W xb b hx wv 2 (fun cc e => (hv cc e).trans (congrArg W (congrArg (ix2 · cc) (Fin.ext (by simp))))) m e

variable (off : Fin 3 → Nat) (inb : ∀ a, off a + S1x256x768.size a ≤ S1x2048x768.size a) (r : Nat)
variable (h0 : off 0 = 0) (h1 : off 1 = r) (h2 : off 2 = 0) (hr : r + 256 ≤ 2048)

include hx hq h0 h1 h2 in
/-- The query tile's projection at (p, e). -/
theorem q_tile (p : Fin 256) (e : Fin 768) :
    k0_pay30 (View.ld xb (Rect.unit off S1x256x768.size inb)) wq (ix2 p e)
      = partAt X W 0 b ⟨r + p.val, by have := p.isLt; omega⟩ e := by
  rw [pay30_apply]
  refine Eq.trans (Finset.sum_congr rfl fun cc _ => ?_)
    (rows_part X W xb b hx wq 0 (fun cc e => (hq cc e).trans (congrArg W (congrArg (ix2 · cc) (Fin.ext (by simp))))) ⟨r + p.val, by have := p.isLt; omega⟩ e)
  rw [ldg3_apply xb off inb (0 : Fin 1) p cc (0 : Fin 1) ⟨r + p.val, by have := p.isLt; omega⟩ cc (by simp [h0]) (by simp [h1]) (by simp [h2])]

variable (ks vs : Vec Ideal S2048x768 .f32)
variable (hks : ∀ (m : Fin 2048) (e : Fin 768), ks (ix2 m e) = partAt X W 1 b m e)
variable (hvs : ∀ (m : Fin 2048) (e : Fin 768), vs (ix2 m e) = partAt X W 2 b m e)

include hx hq hp hb h0 h1 h2 hks hvs in
/-- The attention tile at (p, e) is the specification at row r + p of the batch. -/
theorem out_tile (u : Fin 1) (p : Fin 256) (e : Fin 768) :
    tileVec (View.ld xb (Rect.unit off S1x256x768.size inb)) wq wp bp ks vs (ix3 u p e)
      = outAt X W P B b ⟨r + p.val, by have := p.isLt; omega⟩ e := by
  rw [tileVec_apply]
  unfold outAt
  refine congrArg₂ (· + ·) (Finset.sum_congr rfl fun c _ => ?_) (hb e)
  rw [hp]
  refine congrArg (· * P (ix2 e c)) ?_
  unfold catAt
  refine congr (congr (congrArg headAt (funext fun d' => ?_)) (funext fun m => funext fun d' => ?_)) (funext fun m => ?_)
  · rw [q_tile X W xb wq b hx hq off inb r h0 h1 h2 hr]
    exact projAt_congr X W b _ (by simp [col] <;> omega)
  · rw [hks]
    exact projAt_congr X W b _ (by simp [col] <;> omega)
  · rw [hvs]
    exact projAt_congr X W b _ (by simp [col] <;> omega)

include hx hq h0 h1 h2 in
/-- The query tile stored as a [1, 256, 768] block. -/
theorem q_block (u : Fin 1) (p : Fin 256) (e : Fin 768) :
    k0_pay31 (View.ld xb (Rect.unit off S1x256x768.size inb)) wq (ix3 u p e)
      = partAt X W 0 b ⟨r + p.val, by have := p.isLt; omega⟩ e := by
  unfold k0_pay31
  rw [shapeCast_ab_1ab_apply]
  exact q_tile X W xb wq b hx hq off inb r h0 h1 h2 hr p e

end Point

/-- Rows r … r + 255 of a [2048, 768] buffer, stored as a [1, 256, 768] block. -/
theorem rows_block (ks : Vec Ideal S2048x768 .f32) (off : Fin 2 → Nat) (inb : ∀ a, off a + S256x768.size a ≤ S2048x768.size a)
    (r : Nat) (h0 : off 0 = r) (h1 : off 1 = 0) (hr : r + 256 ≤ 2048) (u : Fin 1) (p : Fin 256) (e : Fin 768) :
    k0_pay2 (View.ld ks (Rect.unit off S256x768.size inb)) (ix3 u p e) = ks (ix2 ⟨r + p.val, by have := p.isLt; omega⟩ e) := by
  unfold k0_pay2
  rw [shapeCast_ab_1ab_apply]
  exact ldg2_apply ks off inb p e ⟨r + p.val, by have := p.isLt; omega⟩ e (by simp [h0]) (by simp [h1])

theorem rows_block' (vs : Vec Ideal S2048x768 .f32) (off : Fin 2 → Nat) (inb : ∀ a, off a + S256x768.size a ≤ S2048x768.size a)
    (r : Nat) (h0 : off 0 = r) (h1 : off 1 = 0) (hr : r + 256 ≤ 2048) (u : Fin 1) (p : Fin 256) (e : Fin 768) :
    k0_pay3 (View.ld vs (Rect.unit off S256x768.size inb)) (ix3 u p e) = vs (ix2 ⟨r + p.val, by have := p.isLt; omega⟩ e) := by
  unfold k0_pay3
  rw [shapeCast_ab_1ab_apply]
  exact ldg2_apply vs off inb p e ⟨r + p.val, by have := p.isLt; omega⟩ e (by simp [h0]) (by simp [h1])

end Cert.KernelIdeal.Tile

end
-- ==== Proof.KernelRun.lean ====
/-
  The kernel's run, read: after the 32 grid points (4 batches times 8 tiles of 256 rows) the four result arrays hold
  the attention output and the three parts of the fused projection.

  A point (b, q) reads batch b's rows of the input, the four weight matrices (the host's transposes of the three
  parts of the fused weights and of the output weights) and the bias row. The first point of each batch fills the key
  and value buffers with the batch's projections, and they stay so through the batch's other seven points; so every
  point's output tile is the specification's rows 256q … 256q+255 of batch b, and the 32 tiles cover the arrays.
-/
import proofs.«148277_j16887811408512_2_alg».proof.Proof.KernelBuffers
import proofs.«148277_j16887811408512_2_alg».proof.Proof.KernelPoint
import proofs.«148277_j16887811408512_2_alg».proof.Proof.Gen.KernelIdeal.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.Attn Idealize.ShloMosaic.ValueIdx

/-! ## The region's arrays and the windows' blocks -/

section Run
variable (m : (ℓ : Loc nD τ sig) → Buf (Elt Ideal) ℓ) (ρ : Dev nD → PrngReg)

/-- The four arguments on a core, as plain functions of their indices. -/
abbrev aX (c : Dev nD) : SX.Idx → EReal := m ((c : Thread nD τ).loc main_arg0)
abbrev aW (c : Dev nD) : SW.Idx → EReal := m ((c : Thread nD τ).loc main_arg1)
abbrev aP (c : Dev nD) : SP.Idx → EReal := m ((c : Thread nD τ).loc main_arg2)
abbrev aB (c : Dev nD) : SB.Idx → EReal := m ((c : Thread nD τ).loc main_arg3)

/-- The query weights the host hands the region: rows 0 … 0+767 of the fused weights, transposed. -/
theorem V_v2 (c : Dev nD) : (V m c main_v2 : S768x768.Idx → EReal)
    = (truncf .bf16 (transpose S768x768 [1, 0] (extractStridedSlice S768x768 ![0, 0] (aW m c) slices_S2304x768_S768x768_0_0)
        transposes_S768x768_S768x768_1_0) bitsLt_bf16_f32 : FVec Ideal S768x768 .bf16) := by
  dsimp only [Gen.V, Gen.hostOps0]; after_results

theorem v2_at (c : Dev nD) (cc e : Fin 768) :
    (V m c main_v2 : S768x768.Idx → EReal) (ix2 cc e) = aW m c (ix2 ⟨0 + e.val, by have := e.isLt; omega⟩ cc) := by
  rw [V_v2]
  rw [truncf_apply, transpose_ix2_apply]
  exact slice2_axis0_apply 0 _ _ e cc ⟨0 + e.val, by have := e.isLt; omega⟩ rfl

/-- The key weights the host hands the region: rows 768 … 768+767 of the fused weights, transposed. -/
theorem V_v5 (c : Dev nD) : (V m c main_v5 : S768x768.Idx → EReal)
    = (truncf .bf16 (transpose S768x768 [1, 0] (extractStridedSlice S768x768 ![768, 0] (aW m c) slices_S2304x768_S768x768_768_0)
        transposes_S768x768_S768x768_1_0) bitsLt_bf16_f32 : FVec Ideal S768x768 .bf16) := by
  dsimp only [Gen.V, Gen.hostOps0]; after_results

theorem v5_at (c : Dev nD) (cc e : Fin 768) :
    (V m c main_v5 : S768x768.Idx → EReal) (ix2 cc e) = aW m c (ix2 ⟨768 + e.val, by have := e.isLt; omega⟩ cc) := by
  rw [V_v5]
  rw [truncf_apply, transpose_ix2_apply]
  exact slice2_axis0_apply 768 _ _ e cc ⟨768 + e.val, by have := e.isLt; omega⟩ rfl

/-- The value weights the host hands the region: rows 1536 … 1536+767 of the fused weights, transposed. -/
theorem V_v8 (c : Dev nD) : (V m c main_v8 : S768x768.Idx → EReal)
    = (truncf .bf16 (transpose S768x768 [1, 0] (extractStridedSlice S768x768 ![1536, 0] (aW m c) slices_S2304x768_S768x768_1536_0)
        transposes_S768x768_S768x768_1_0) bitsLt_bf16_f32 : FVec Ideal S768x768 .bf16) := by
  dsimp only [Gen.V, Gen.hostOps0]; after_results

theorem v8_at (c : Dev nD) (cc e : Fin 768) :
    (V m c main_v8 : S768x768.Idx → EReal) (ix2 cc e) = aW m c (ix2 ⟨1536 + e.val, by have := e.isLt; omega⟩ cc) := by
  rw [V_v8]
  rw [truncf_apply, transpose_ix2_apply]
  exact slice2_axis0_apply 1536 _ _ e cc ⟨1536 + e.val, by have := e.isLt; omega⟩ rfl

/-- The output weights the host hands the region, transposed. -/
theorem V_v10 (c : Dev nD) : (V m c main_v10 : S768x768.Idx → EReal)
    = (truncf .bf16 (transpose S768x768 [1, 0] (aP m c) transposes_S768x768_S768x768_1_0) bitsLt_bf16_f32 : FVec Ideal S768x768 .bf16) := by
  dsimp only [Gen.V, Gen.hostOps0]; after_results

theorem v10_at (c : Dev nD) (cc e : Fin 768) : (V m c main_v10 : S768x768.Idx → EReal) (ix2 cc e) = aP m c (ix2 e cc) := by
  rw [V_v10]
  rw [truncf_apply, transpose_ix2_apply]

/-- The bias as a row. -/
theorem V_v11 (c : Dev nD) : (V m c main_v11 : S1x768.Idx → EReal)
    = (shapeCast S1x768 (aB m c) shapeCasts_S768_S1x768 : FVec Ideal S1x768 .f32) := by
  dsimp only [Gen.V, Gen.hostOps0]; after_results
  rfl

theorem v11_at (c : Dev nD) (e : Fin 768) : (V m c main_v11 : S1x768.Idx → EReal) (ix2 (0 : Fin 1) e) = aB m c (ix1 e) := by
  rw [V_v11]
  exact shapeCast_a_1a_apply _ _ (0 : Fin 1) e

/-- The printed index maps and the body's row offsets over the 32 points: point t is batch t / 8, tile t % 8. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 8 ∧ win0_6.index t (1 : Fin 3) = t.val % 8 ∧ win0_6.index t (2 : Fin 3) = 0
    ∧ win0_7.index t (0 : Fin 3) = t.val / 8 ∧ win0_7.index t (1 : Fin 3) = t.val % 8 ∧ win0_7.index t (2 : Fin 3) = 0
    ∧ win0_8.index t (0 : Fin 3) = t.val / 8 ∧ win0_8.index t (1 : Fin 3) = t.val % 8 ∧ win0_8.index t (2 : Fin 3) = 0
    ∧ win0_9.index t (0 : Fin 3) = t.val / 8 ∧ win0_9.index t (1 : Fin 3) = t.val % 8 ∧ win0_9.index t (2 : Fin 3) = 0
    ∧ k0_off3 (grid0.coords t) 0 = 0 ∧ k0_off3 (grid0.coords t) 1 = 256 * (t.val % 8) ∧ k0_off3 (grid0.coords t) 2 = 0
    ∧ k0_off4 (grid0.coords t) 0 = 256 * (t.val % 8) ∧ k0_off4 (grid0.coords t) 1 = 0 :=
  (by decide +kernel : ∀ t : Fin grid0.N, _)

/-- The batch and the row of a point's tile. -/
def bOf (n : ℕ) (h : n < cfg0.N) : Fin 4 := ⟨n / 8, by have := lt_of_lt_of_eq h (show cfg0.N = 32 from N_0); omega⟩
def rowOf (n : ℕ) (h : n < cfg0.N) (p : Fin 256) : Fin 2048 := ⟨256 * (n % 8) + p.val, by have := p.isLt; omega⟩

theorem iblk0_at (c : Dev nD) (t : Fin cfg0.N) (n : Fin 2048) (cc : Fin 768) :
    (iblk m c 0 t : Vec Ideal S1x2048x768 .f32) (ix3 (0 : Fin 1) n cc) = aX m c (ix3 (bOf t.val t.isLt) n cc) := by
  have hf := idx_facts t
  show V m c main_arg0 (((cfg0.win 0).blk t).view.emb (ix3 (0 : Fin 1) n cc)) = _
  rw [V_main_arg0]
  refine congrArg (aX m c) (funext fun ax => Fin.ext ?_)
  match ax with
  | ⟨0, _⟩ => show win0_0.index t (0 : Fin 3) * 1 + 1 * 0 = t.val / 8; omega
  | ⟨1, _⟩ => show win0_0.index t (1 : Fin 3) * 2048 + 1 * n.val = n.val; omega
  | ⟨2, _⟩ => show win0_0.index t (2 : Fin 3) * 768 + 1 * cc.val = cc.val; omega

theorem iblk1_at (c : Dev nD) (t : Fin cfg0.N) (a b : Fin 768) :
    (iblk m c 1 t : Vec Ideal S768x768 .bf16) (ix2 a b) = (V m c main_v2 : S768x768.Idx → EReal) (ix2 a b) := by
  have hf := idx_facts t
  show V m c main_v2 (((cfg0.win 1).blk t).view.emb (ix2 a b)) = _
  refine congrArg _ (funext fun ax => Fin.ext ?_)
  match ax with
  | ⟨0, _⟩ => show win0_1.index t (0 : Fin 2) * 768 + 1 * a.val = a.val; omega
  | ⟨1, _⟩ => show win0_1.index t (1 : Fin 2) * 768 + 1 * b.val = b.val; omega

theorem iblk2_at (c : Dev nD) (t : Fin cfg0.N) (a b : Fin 768) :
    (iblk m c 2 t : Vec Ideal S768x768 .bf16) (ix2 a b) = (V m c main_v5 : S768x768.Idx → EReal) (ix2 a b) := by
  have hf := idx_facts t
  show V m c main_v5 (((cfg0.win 2).blk t).view.emb (ix2 a b)) = _
  refine congrArg _ (funext fun ax => Fin.ext ?_)
  match ax with
  | ⟨0, _⟩ => show win0_2.index t (0 : Fin 2) * 768 + 1 * a.val = a.val; omega
  | ⟨1, _⟩ => show win0_2.index t (1 : Fin 2) * 768 + 1 * b.val = b.val; omega

theorem iblk3_at (c : Dev nD) (t : Fin cfg0.N) (a b : Fin 768) :
    (iblk m c 3 t : Vec Ideal S768x768 .bf16) (ix2 a b) = (V m c main_v8 : S768x768.Idx → EReal) (ix2 a b) := by
  have hf := idx_facts t
  show V m c main_v8 (((cfg0.win 3).blk t).view.emb (ix2 a b)) = _
  refine congrArg _ (funext fun ax => Fin.ext ?_)
  match ax with
  | ⟨0, _⟩ => show win0_3.index t (0 : Fin 2) * 768 + 1 * a.val = a.val; omega
  | ⟨1, _⟩ => show win0_3.index t (1 : Fin 2) * 768 + 1 * b.val = b.val; omega

theorem iblk4_at (c : Dev nD) (t : Fin cfg0.N) (a b : Fin 768) :
    (iblk m c 4 t : Vec Ideal S768x768 .bf16) (ix2 a b) = (V m c main_v10 : S768x768.Idx → EReal) (ix2 a b) := by
  have hf := idx_facts t
  show V m c main_v10 (((cfg0.win 4).blk t).view.emb (ix2 a b)) = _
  refine congrArg _ (funext fun ax => Fin.ext ?_)
  match ax with
  | ⟨0, _⟩ => show win0_4.index t (0 : Fin 2) * 768 + 1 * a.val = a.val; omega
  | ⟨1, _⟩ => show win0_4.index t (1 : Fin 2) * 768 + 1 * b.val = b.val; omega

theorem iblk5_at (c : Dev nD) (t : Fin cfg0.N) (e : Fin 768) :
    (iblk m c 5 t : Vec Ideal S1x768 .f32) (ix2 (0 : Fin 1) e) = (V m c main_v11 : S1x768.Idx → EReal) (ix2 (0 : Fin 1) e) := by
  have hf := idx_facts t
  show V m c main_v11 (((cfg0.win 5).blk t).view.emb (ix2 (0 : Fin 1) e)) = _
  refine congrArg _ (funext fun ax => Fin.ext ?_)
  match ax with
  | ⟨0, _⟩ => show win0_5.index t (0 : Fin 2) * 1 + 1 * 0 = 0; omega
  | ⟨1, _⟩ => show win0_5.index t (1 : Fin 2) * 768 + 1 * e.val = e.val; omega

/-! ## What every point leaves -/

/-- After point n: the four tiles are the specification's rows of the point's batch, and the two buffers hold the
    batch's key and value projections. -/
def OutsSpec (c : Dev nD) (n : ℕ) (h : n < cfg0.N) : Prop :=
  (∀ (u : Fin 1) (p : Fin 256) (e : Fin 768), (outsAt0 m c n h).1 (ix3 u p e) = outAt (aX m c) (aW m c) (aP m c) (aB m c) (bOf n h) (rowOf n h p) e)
  ∧ (∀ (u : Fin 1) (p : Fin 256) (e : Fin 768), (outsAt0 m c n h).2.1 (ix3 u p e) = partAt (aX m c) (aW m c) 0 (bOf n h) (rowOf n h p) e)
  ∧ (∀ (u : Fin 1) (p : Fin 256) (e : Fin 768), (outsAt0 m c n h).2.2.1 (ix3 u p e) = partAt (aX m c) (aW m c) 1 (bOf n h) (rowOf n h p) e)
  ∧ (∀ (u : Fin 1) (p : Fin 256) (e : Fin 768), (outsAt0 m c n h).2.2.2.1 (ix3 u p e) = partAt (aX m c) (aW m c) 2 (bOf n h) (rowOf n h p) e)
  ∧ (∀ (mm : Fin 2048) (e : Fin 768), (outsAt0 m c n h).2.2.2.2.1 (ix2 mm e) = partAt (aX m c) (aW m c) 1 (bOf n h) mm e)
  ∧ (∀ (mm : Fin 2048) (e : Fin 768), (outsAt0 m c n h).2.2.2.2.2 (ix2 mm e) = partAt (aX m c) (aW m c) 2 (bOf n h) mm e)

section PointFacts
variable (c : Dev nD) (t : Fin cfg0.N)

theorem hx_t (n : Fin 2048) (cc : Fin 768) :
    (iblk m c 0 t : Vec Ideal S1x2048x768 .f32) (ix3 (0 : Fin 1) n cc) = aX m c (ix3 (bOf t.val t.isLt) n cc) := iblk0_at m c t n cc
theorem hq_t (cc e : Fin 768) : (iblk m c 1 t : Vec Ideal S768x768 .bf16) (ix2 cc e) = aW m c (ix2 ⟨e.val, by have := e.isLt; omega⟩ cc) :=
  (iblk1_at m c t cc e).trans ((v2_at m c cc e).trans (congrArg (aW m c) (congrArg (ix2 · cc) (Fin.ext (by simp)))))
theorem hk_t (cc e : Fin 768) : (iblk m c 2 t : Vec Ideal S768x768 .bf16) (ix2 cc e) = aW m c (ix2 ⟨768 + e.val, by have := e.isLt; omega⟩ cc) :=
  (iblk2_at m c t cc e).trans (v5_at m c cc e)
theorem hv_t (cc e : Fin 768) : (iblk m c 3 t : Vec Ideal S768x768 .bf16) (ix2 cc e) = aW m c (ix2 ⟨1536 + e.val, by have := e.isLt; omega⟩ cc) :=
  (iblk3_at m c t cc e).trans (v8_at m c cc e)
theorem hp_t (cc e : Fin 768) : (iblk m c 4 t : Vec Ideal S768x768 .bf16) (ix2 cc e) = aP m c (ix2 e cc) :=
  (iblk4_at m c t cc e).trans (v10_at m c cc e)
theorem hb_t (e : Fin 768) : (iblk m c 5 t : Vec Ideal S1x768 .f32) (ix2 (0 : Fin 1) e) = aB m c (ix1 e) :=
  (iblk5_at m c t e).trans (v11_at m c e)

end PointFacts

set_option maxHeartbeats 1000000 in
/-- The first point of a batch. -/
theorem caseA (c : Dev nD) (t : Fin cfg0.N) (h0 : t.val % 8 = 0) : OutsSpec m c t.val t.isLt := by
  have hN : t.val < 32 := lt_of_lt_of_eq t.isLt (show cfg0.N = 32 from N_0)
  obtain ⟨-, -, -, -, -, -, -, -, -, -, -, -, -, -, -, -, -, -, -, -, -, -, -, -, -, o30, o31, o32, o40, o41⟩ := idx_facts t
  have hr : 256 * (t.val % 8) + 256 ≤ 2048 := by omega
  unfold OutsSpec
  rw [outsAt0_A m c t h0]
  dsimp only
  have hks : ∀ (mm : Fin 2048) (e : Fin 768),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (ix2 mm e)
        = partAt (aX m c) (aW m c) 1 (bOf t.val t.isLt) mm e := fun mm e => by
    rw [sout0_A_0_val]
    exact kv_key (aX m c) (aW m c) (iblk m c 0 t) (iblk m c 2 t) (bOf t.val t.isLt) (hx_t m c t) (hk_t m c t) mm e
  have hvs : ∀ (mm : Fin 2048) (e : Fin 768),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (ix2 mm e)
        = partAt (aX m c) (aW m c) 2 (bOf t.val t.isLt) mm e := fun mm e => by
    rw [sout0_A_1_val]
    exact kv_val (aX m c) (aW m c) (iblk m c 0 t) (iblk m c 3 t) (bOf t.val t.isLt) (hx_t m c t) (hv_t m c t) mm e
  refine ⟨fun u p e => ?_, fun u p e => ?_, fun u p e => ?_, fun u p e => ?_, hks, hvs⟩
  · rw [out6_A]
    exact out_tile (aX m c) (aW m c) (aP m c) (aB m c) (iblk m c 0 t) (iblk m c 1 t) (iblk m c 4 t) (iblk m c 5 t) (bOf t.val t.isLt)
      (hx_t m c t) (hq_t m c t) (hp_t m c t) (hb_t m c t) (k0_off3 (grid0.coords t)) (k0_off3_inb (grid0.coords t)) (256 * (t.val % 8)) o30 o31 o32 hr
      _ _ hks hvs u p e
  · rw [out7_A]
    exact q_block (aX m c) (aW m c) (iblk m c 0 t) (iblk m c 1 t) (bOf t.val t.isLt) (hx_t m c t) (hq_t m c t)
      (k0_off3 (grid0.coords t)) (k0_off3_inb (grid0.coords t)) (256 * (t.val % 8)) o30 o31 o32 hr u p e
  · rw [out8_A, rows_block _ (k0_off4 (grid0.coords t)) (k0_off4_inb (grid0.coords t)) (256 * (t.val % 8)) o40 o41 hr u p e]
    exact hks _ e
  · rw [out9_A, rows_block' _ (k0_off4 (grid0.coords t)) (k0_off4_inb (grid0.coords t)) (256 * (t.val % 8)) o40 o41 hr u p e]
    exact hvs _ e

set_option maxHeartbeats 1000000 in
/-- A later point of a batch: the buffers are as the point before left them, and that point is of the same batch. -/
theorem caseB (c : Dev nD) (t : Fin cfg0.N) (h0 : ¬t.val % 8 = 0)
    (ih : OutsSpec m c (t.val - 1) (Nat.lt_of_le_of_lt (Nat.sub_le _ _) t.isLt)) : OutsSpec m c t.val t.isLt := by
  have hN : t.val < 32 := lt_of_lt_of_eq t.isLt (show cfg0.N = 32 from N_0)
  obtain ⟨-, -, -, -, -, -, -, -, -, -, -, -, -, -, -, -, -, -, -, -, -, -, -, -, -, o30, o31, o32, o40, o41⟩ := idx_facts t
  have hr : 256 * (t.val % 8) + 256 ≤ 2048 := by omega
  obtain ⟨-, -, -, -, ihk, ihv⟩ := ih
  have hbb : bOf (t.val - 1) (Nat.lt_of_le_of_lt (Nat.sub_le _ _) t.isLt) = bOf t.val t.isLt := Fin.ext (by show (t.val - 1) / 8 = t.val / 8; omega)
  rw [hbb] at ihk ihv
  unfold OutsSpec
  rw [outsAt0_B m c t h0]
  dsimp only [sout0_B_0, sout0_B_1]
  refine ⟨fun u p e => ?_, fun u p e => ?_, fun u p e => ?_, fun u p e => ?_, ihk, ihv⟩
  · rw [out6_B]
    exact out_tile (aX m c) (aW m c) (aP m c) (aB m c) (iblk m c 0 t) (iblk m c 1 t) (iblk m c 4 t) (iblk m c 5 t) (bOf t.val t.isLt)
      (hx_t m c t) (hq_t m c t) (hp_t m c t) (hb_t m c t) (k0_off3 (grid0.coords t)) (k0_off3_inb (grid0.coords t)) (256 * (t.val % 8)) o30 o31 o32 hr
      _ _ ihk ihv u p e
  · rw [out7_B]
    exact q_block (aX m c) (aW m c) (iblk m c 0 t) (iblk m c 1 t) (bOf t.val t.isLt) (hx_t m c t) (hq_t m c t)
      (k0_off3 (grid0.coords t)) (k0_off3_inb (grid0.coords t)) (256 * (t.val % 8)) o30 o31 o32 hr u p e
  · rw [out8_B, rows_block _ (k0_off4 (grid0.coords t)) (k0_off4_inb (grid0.coords t)) (256 * (t.val % 8)) o40 o41 hr u p e]
    exact ihk _ e
  · rw [out9_B, rows_block' _ (k0_off4 (grid0.coords t)) (k0_off4_inb (grid0.coords t)) (256 * (t.val % 8)) o40 o41 hr u p e]
    exact ihv _ e

/-- Every point, by induction along the grid. -/
theorem outs_val (c : Dev nD) : ∀ (n : ℕ) (h : n < cfg0.N), OutsSpec m c n h
  | 0, h => caseA m c ⟨0, h⟩ rfl
  | n + 1, h => by
    by_cases h0 : (n + 1) % 8 = 0
    · exact caseA m c ⟨n + 1, h⟩ h0
    · exact caseB m c ⟨n + 1, h⟩ h0 (outs_val c n (Nat.lt_of_succ_lt h))

/-! ## The four arrays after the run -/

theorem flushed6_eq (c : Dev nD) (t : Fin cfg0.N) (hf : (cfg0.win 6).flush t = true) :
    (dats m 0 c).flushed 6 t = ((cfg0.win 6).blk t).view.read (Elt Ideal) (outArr (aX m c) (aW m c) (aP m c) (aB m c)) := by
  rw [Value.flushed6]
  have hfacts := idx_facts t
  have hN : t.val < 32 := lt_of_lt_of_eq t.isLt (show cfg0.N = 32 from N_0)
  funext j
  obtain ⟨u, p, e, rfl⟩ : ∃ (u : Fin 1) (p : Fin 256) (e : Fin 768), j = ix3 u p e := ⟨j 0, j 1, j 2, eq_ix3 j⟩
  show (outsAt0 m c t.val t.isLt).1 (ix3 u p e) = (outArr (aX m c) (aW m c) (aP m c) (aB m c)) (((cfg0.win 6).blk t).view.emb (ix3 u p e))
  rw [(outs_val m c t.val t.isLt).1 u p e]
  have hu : u.val = 0 := by omega
  have hp : p.val < 256 := p.isLt
  have e0 : ((((cfg0.win 6).blk t).view.emb (ix3 u p e)) 0 : Fin 4) = bOf t.val t.isLt :=
    Fin.ext (by show win0_6.index t (0 : Fin 3) * 1 + 1 * u.val = t.val / 8; omega)
  have e1 : ((((cfg0.win 6).blk t).view.emb (ix3 u p e)) 1 : Fin 2048) = rowOf t.val t.isLt p :=
    Fin.ext (by show win0_6.index t (1 : Fin 3) * 256 + 1 * p.val = 256 * (t.val % 8) + p.val; omega)
  have e2 : ((((cfg0.win 6).blk t).view.emb (ix3 u p e)) 2 : Fin 768) = e :=
    Fin.ext (by show win0_6.index t (2 : Fin 3) * 768 + 1 * e.val = e.val; omega)
  show _ = outAt (aX m c) (aW m c) (aP m c) (aB m c) (((cfg0.win 6).blk t).view.emb (ix3 u p e) 0) (((cfg0.win 6).blk t).view.emb (ix3 u p e) 1) (((cfg0.win 6).blk t).view.emb (ix3 u p e) 2)
  rw [e0, e1, e2]

theorem cover6 (i : S4x2048x768.Idx) : ∃ t : Fin cfg0.N, (cfg0.win 6).flush t = true ∧ i ∈ ((cfg0.win 6).blk t).view.set := by
  have h0 : (i 0).val < 4 := (i 0).isLt
  have h1 : (i 1).val < 2048 := (i 1).isLt
  have h2 : (i 2).val < 768 := (i 2).isLt
  have hlt : 8 * (i 0).val + (i 1).val / 256 < cfg0.N := by rw [show cfg0.N = 32 from N_0]; omega
  refine ⟨⟨8 * (i 0).val + (i 1).val / 256, hlt⟩, flush0_6 _, ?_⟩
  have hfacts := idx_facts ⟨8 * (i 0).val + (i 1).val / 256, hlt⟩
  show i ∈ ((View.whole main_v12_0).slice (win0_6.rect ⟨8 * (i 0).val + (i 1).val / 256, hlt⟩)).set
  rw [View.set_slice_whole, Rect.mem_set_unit]
  intro a
  match a with
  | ⟨0, _⟩ => show win0_6.index ⟨8 * (i 0).val + (i 1).val / 256, hlt⟩ (0 : Fin 3) * 1 ≤ (i 0).val ∧ (i 0).val < win0_6.index ⟨8 * (i 0).val + (i 1).val / 256, hlt⟩ (0 : Fin 3) * 1 + 1; dsimp only at hfacts; omega
  | ⟨1, _⟩ => show win0_6.index ⟨8 * (i 0).val + (i 1).val / 256, hlt⟩ (1 : Fin 3) * 256 ≤ (i 1).val ∧ (i 1).val < win0_6.index ⟨8 * (i 0).val + (i 1).val / 256, hlt⟩ (1 : Fin 3) * 256 + 256; dsimp only at hfacts; omega
  | ⟨2, _⟩ => show win0_6.index ⟨8 * (i 0).val + (i 1).val / 256, hlt⟩ (2 : Fin 3) * 768 ≤ (i 2).val ∧ (i 2).val < win0_6.index ⟨8 * (i 0).val + (i 1).val / 256, hlt⟩ (2 : Fin 3) * 768 + 768; dsimp only at hfacts; omega

theorem final6 (c : Dev nD) : (dats m 0 c).arrAt 6 cfg0.N = outArr (aX m c) (aW m c) (aP m c) (aB m c) :=
  (dats m 0 c).arrAt_eq_of_cover 6 (outArr (aX m c) (aW m c) (aP m c) (aB m c)) (fun t hf => flushed6_eq m c t hf) cover6

theorem flushed7_eq (c : Dev nD) (t : Fin cfg0.N) (hf : (cfg0.win 7).flush t = true) :
    (dats m 0 c).flushed 7 t = ((cfg0.win 7).blk t).view.read (Elt Ideal) (partArr (aX m c) (aW m c) 0) := by
  rw [Value.flushed7]
  have hfacts := idx_facts t
  have hN : t.val < 32 := lt_of_lt_of_eq t.isLt (show cfg0.N = 32 from N_0)
  funext j
  obtain ⟨u, p, e, rfl⟩ : ∃ (u : Fin 1) (p : Fin 256) (e : Fin 768), j = ix3 u p e := ⟨j 0, j 1, j 2, eq_ix3 j⟩
  show (outsAt0 m c t.val t.isLt).2.1 (ix3 u p e) = (partArr (aX m c) (aW m c) 0) (((cfg0.win 7).blk t).view.emb (ix3 u p e))
  rw [(outs_val m c t.val t.isLt).2.1 u p e]
  have hu : u.val = 0 := by omega
  have hp : p.val < 256 := p.isLt
  have e0 : ((((cfg0.win 7).blk t).view.emb (ix3 u p e)) 0 : Fin 4) = bOf t.val t.isLt :=
    Fin.ext (by show win0_7.index t (0 : Fin 3) * 1 + 1 * u.val = t.val / 8; omega)
  have e1 : ((((cfg0.win 7).blk t).view.emb (ix3 u p e)) 1 : Fin 2048) = rowOf t.val t.isLt p :=
    Fin.ext (by show win0_7.index t (1 : Fin 3) * 256 + 1 * p.val = 256 * (t.val % 8) + p.val; omega)
  have e2 : ((((cfg0.win 7).blk t).view.emb (ix3 u p e)) 2 : Fin 768) = e :=
    Fin.ext (by show win0_7.index t (2 : Fin 3) * 768 + 1 * e.val = e.val; omega)
  show _ = partAt (aX m c) (aW m c) 0 (((cfg0.win 7).blk t).view.emb (ix3 u p e) 0) (((cfg0.win 7).blk t).view.emb (ix3 u p e) 1) (((cfg0.win 7).blk t).view.emb (ix3 u p e) 2)
  rw [e0, e1, e2]

theorem cover7 (i : S4x2048x768.Idx) : ∃ t : Fin cfg0.N, (cfg0.win 7).flush t = true ∧ i ∈ ((cfg0.win 7).blk t).view.set := by
  have h0 : (i 0).val < 4 := (i 0).isLt
  have h1 : (i 1).val < 2048 := (i 1).isLt
  have h2 : (i 2).val < 768 := (i 2).isLt
  have hlt : 8 * (i 0).val + (i 1).val / 256 < cfg0.N := by rw [show cfg0.N = 32 from N_0]; omega
  refine ⟨⟨8 * (i 0).val + (i 1).val / 256, hlt⟩, flush0_7 _, ?_⟩
  have hfacts := idx_facts ⟨8 * (i 0).val + (i 1).val / 256, hlt⟩
  show i ∈ ((View.whole main_v12_1).slice (win0_7.rect ⟨8 * (i 0).val + (i 1).val / 256, hlt⟩)).set
  rw [View.set_slice_whole, Rect.mem_set_unit]
  intro a
  match a with
  | ⟨0, _⟩ => show win0_7.index ⟨8 * (i 0).val + (i 1).val / 256, hlt⟩ (0 : Fin 3) * 1 ≤ (i 0).val ∧ (i 0).val < win0_7.index ⟨8 * (i 0).val + (i 1).val / 256, hlt⟩ (0 : Fin 3) * 1 + 1; dsimp only at hfacts; omega
  | ⟨1, _⟩ => show win0_7.index ⟨8 * (i 0).val + (i 1).val / 256, hlt⟩ (1 : Fin 3) * 256 ≤ (i 1).val ∧ (i 1).val < win0_7.index ⟨8 * (i 0).val + (i 1).val / 256, hlt⟩ (1 : Fin 3) * 256 + 256; dsimp only at hfacts; omega
  | ⟨2, _⟩ => show win0_7.index ⟨8 * (i 0).val + (i 1).val / 256, hlt⟩ (2 : Fin 3) * 768 ≤ (i 2).val ∧ (i 2).val < win0_7.index ⟨8 * (i 0).val + (i 1).val / 256, hlt⟩ (2 : Fin 3) * 768 + 768; dsimp only at hfacts; omega

theorem final7 (c : Dev nD) : (dats m 0 c).arrAt 7 cfg0.N = partArr (aX m c) (aW m c) 0 :=
  (dats m 0 c).arrAt_eq_of_cover 7 (partArr (aX m c) (aW m c) 0) (fun t hf => flushed7_eq m c t hf) cover7

theorem flushed8_eq (c : Dev nD) (t : Fin cfg0.N) (hf : (cfg0.win 8).flush t = true) :
    (dats m 0 c).flushed 8 t = ((cfg0.win 8).blk t).view.read (Elt Ideal) (partArr (aX m c) (aW m c) 1) := by
  rw [Value.flushed8]
  have hfacts := idx_facts t
  have hN : t.val < 32 := lt_of_lt_of_eq t.isLt (show cfg0.N = 32 from N_0)
  funext j
  obtain ⟨u, p, e, rfl⟩ : ∃ (u : Fin 1) (p : Fin 256) (e : Fin 768), j = ix3 u p e := ⟨j 0, j 1, j 2, eq_ix3 j⟩
  show (outsAt0 m c t.val t.isLt).2.2.1 (ix3 u p e) = (partArr (aX m c) (aW m c) 1) (((cfg0.win 8).blk t).view.emb (ix3 u p e))
  rw [(outs_val m c t.val t.isLt).2.2.1 u p e]
  have hu : u.val = 0 := by omega
  have hp : p.val < 256 := p.isLt
  have e0 : ((((cfg0.win 8).blk t).view.emb (ix3 u p e)) 0 : Fin 4) = bOf t.val t.isLt :=
    Fin.ext (by show win0_8.index t (0 : Fin 3) * 1 + 1 * u.val = t.val / 8; omega)
  have e1 : ((((cfg0.win 8).blk t).view.emb (ix3 u p e)) 1 : Fin 2048) = rowOf t.val t.isLt p :=
    Fin.ext (by show win0_8.index t (1 : Fin 3) * 256 + 1 * p.val = 256 * (t.val % 8) + p.val; omega)
  have e2 : ((((cfg0.win 8).blk t).view.emb (ix3 u p e)) 2 : Fin 768) = e :=
    Fin.ext (by show win0_8.index t (2 : Fin 3) * 768 + 1 * e.val = e.val; omega)
  show _ = partAt (aX m c) (aW m c) 1 (((cfg0.win 8).blk t).view.emb (ix3 u p e) 0) (((cfg0.win 8).blk t).view.emb (ix3 u p e) 1) (((cfg0.win 8).blk t).view.emb (ix3 u p e) 2)
  rw [e0, e1, e2]

theorem cover8 (i : S4x2048x768.Idx) : ∃ t : Fin cfg0.N, (cfg0.win 8).flush t = true ∧ i ∈ ((cfg0.win 8).blk t).view.set := by
  have h0 : (i 0).val < 4 := (i 0).isLt
  have h1 : (i 1).val < 2048 := (i 1).isLt
  have h2 : (i 2).val < 768 := (i 2).isLt
  have hlt : 8 * (i 0).val + (i 1).val / 256 < cfg0.N := by rw [show cfg0.N = 32 from N_0]; omega
  refine ⟨⟨8 * (i 0).val + (i 1).val / 256, hlt⟩, flush0_8 _, ?_⟩
  have hfacts := idx_facts ⟨8 * (i 0).val + (i 1).val / 256, hlt⟩
  show i ∈ ((View.whole main_v12_2).slice (win0_8.rect ⟨8 * (i 0).val + (i 1).val / 256, hlt⟩)).set
  rw [View.set_slice_whole, Rect.mem_set_unit]
  intro a
  match a with
  | ⟨0, _⟩ => show win0_8.index ⟨8 * (i 0).val + (i 1).val / 256, hlt⟩ (0 : Fin 3) * 1 ≤ (i 0).val ∧ (i 0).val < win0_8.index ⟨8 * (i 0).val + (i 1).val / 256, hlt⟩ (0 : Fin 3) * 1 + 1; dsimp only at hfacts; omega
  | ⟨1, _⟩ => show win0_8.index ⟨8 * (i 0).val + (i 1).val / 256, hlt⟩ (1 : Fin 3) * 256 ≤ (i 1).val ∧ (i 1).val < win0_8.index ⟨8 * (i 0).val + (i 1).val / 256, hlt⟩ (1 : Fin 3) * 256 + 256; dsimp only at hfacts; omega
  | ⟨2, _⟩ => show win0_8.index ⟨8 * (i 0).val + (i 1).val / 256, hlt⟩ (2 : Fin 3) * 768 ≤ (i 2).val ∧ (i 2).val < win0_8.index ⟨8 * (i 0).val + (i 1).val / 256, hlt⟩ (2 : Fin 3) * 768 + 768; dsimp only at hfacts; omega

theorem final8 (c : Dev nD) : (dats m 0 c).arrAt 8 cfg0.N = partArr (aX m c) (aW m c) 1 :=
  (dats m 0 c).arrAt_eq_of_cover 8 (partArr (aX m c) (aW m c) 1) (fun t hf => flushed8_eq m c t hf) cover8

theorem flushed9_eq (c : Dev nD) (t : Fin cfg0.N) (hf : (cfg0.win 9).flush t = true) :
    (dats m 0 c).flushed 9 t = ((cfg0.win 9).blk t).view.read (Elt Ideal) (partArr (aX m c) (aW m c) 2) := by
  rw [Value.flushed9]
  have hfacts := idx_facts t
  have hN : t.val < 32 := lt_of_lt_of_eq t.isLt (show cfg0.N = 32 from N_0)
  funext j
  obtain ⟨u, p, e, rfl⟩ : ∃ (u : Fin 1) (p : Fin 256) (e : Fin 768), j = ix3 u p e := ⟨j 0, j 1, j 2, eq_ix3 j⟩
  show (outsAt0 m c t.val t.isLt).2.2.2.1 (ix3 u p e) = (partArr (aX m c) (aW m c) 2) (((cfg0.win 9).blk t).view.emb (ix3 u p e))
  rw [(outs_val m c t.val t.isLt).2.2.2.1 u p e]
  have hu : u.val = 0 := by omega
  have hp : p.val < 256 := p.isLt
  have e0 : ((((cfg0.win 9).blk t).view.emb (ix3 u p e)) 0 : Fin 4) = bOf t.val t.isLt :=
    Fin.ext (by show win0_9.index t (0 : Fin 3) * 1 + 1 * u.val = t.val / 8; omega)
  have e1 : ((((cfg0.win 9).blk t).view.emb (ix3 u p e)) 1 : Fin 2048) = rowOf t.val t.isLt p :=
    Fin.ext (by show win0_9.index t (1 : Fin 3) * 256 + 1 * p.val = 256 * (t.val % 8) + p.val; omega)
  have e2 : ((((cfg0.win 9).blk t).view.emb (ix3 u p e)) 2 : Fin 768) = e :=
    Fin.ext (by show win0_9.index t (2 : Fin 3) * 768 + 1 * e.val = e.val; omega)
  show _ = partAt (aX m c) (aW m c) 2 (((cfg0.win 9).blk t).view.emb (ix3 u p e) 0) (((cfg0.win 9).blk t).view.emb (ix3 u p e) 1) (((cfg0.win 9).blk t).view.emb (ix3 u p e) 2)
  rw [e0, e1, e2]

theorem cover9 (i : S4x2048x768.Idx) : ∃ t : Fin cfg0.N, (cfg0.win 9).flush t = true ∧ i ∈ ((cfg0.win 9).blk t).view.set := by
  have h0 : (i 0).val < 4 := (i 0).isLt
  have h1 : (i 1).val < 2048 := (i 1).isLt
  have h2 : (i 2).val < 768 := (i 2).isLt
  have hlt : 8 * (i 0).val + (i 1).val / 256 < cfg0.N := by rw [show cfg0.N = 32 from N_0]; omega
  refine ⟨⟨8 * (i 0).val + (i 1).val / 256, hlt⟩, flush0_9 _, ?_⟩
  have hfacts := idx_facts ⟨8 * (i 0).val + (i 1).val / 256, hlt⟩
  show i ∈ ((View.whole main_v12_3).slice (win0_9.rect ⟨8 * (i 0).val + (i 1).val / 256, hlt⟩)).set
  rw [View.set_slice_whole, Rect.mem_set_unit]
  intro a
  match a with
  | ⟨0, _⟩ => show win0_9.index ⟨8 * (i 0).val + (i 1).val / 256, hlt⟩ (0 : Fin 3) * 1 ≤ (i 0).val ∧ (i 0).val < win0_9.index ⟨8 * (i 0).val + (i 1).val / 256, hlt⟩ (0 : Fin 3) * 1 + 1; dsimp only at hfacts; omega
  | ⟨1, _⟩ => show win0_9.index ⟨8 * (i 0).val + (i 1).val / 256, hlt⟩ (1 : Fin 3) * 256 ≤ (i 1).val ∧ (i 1).val < win0_9.index ⟨8 * (i 0).val + (i 1).val / 256, hlt⟩ (1 : Fin 3) * 256 + 256; dsimp only at hfacts; omega
  | ⟨2, _⟩ => show win0_9.index ⟨8 * (i 0).val + (i 1).val / 256, hlt⟩ (2 : Fin 3) * 768 ≤ (i 2).val ∧ (i 2).val < win0_9.index ⟨8 * (i 0).val + (i 1).val / 256, hlt⟩ (2 : Fin 3) * 768 + 768; dsimp only at hfacts; omega

theorem final9 (c : Dev nD) : (dats m 0 c).arrAt 9 cfg0.N = partArr (aX m c) (aW m c) 2 :=
  (dats m 0 c).arrAt_eq_of_cover 9 (partArr (aX m c) (aW m c) 2) (fun t hf => flushed9_eq m c t hf) cover9

/-- The run: the four results at the specification of the arguments, the arguments unchanged. -/
theorem run : θ_run defs (onTc (τ := τ) (main (F := Ideal))) ⟨m, fun _ => 0, ρ⟩ fun r => ∀ c : Dev nD,
      r.2.mem ((c : Thread nD τ).loc main_v12_0) = outArr (aX m c) (aW m c) (aP m c) (aB m c)
      ∧ r.2.mem ((c : Thread nD τ).loc main_v12_1) = partArr (aX m c) (aW m c) 0
      ∧ r.2.mem ((c : Thread nD τ).loc main_v12_2) = partArr (aX m c) (aW m c) 1
      ∧ r.2.mem ((c : Thread nD τ).loc main_v12_3) = partArr (aX m c) (aW m c) 2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final6 m c), (h c).2.1.trans (final7 m c), (h c).2.2.1.trans (final8 m c),
      (h c).2.2.2.1.trans (final9 m c), (h c).2.2.2.2⟩)
    (Value.run_blocks m ρ)

end Run

end Cert.KernelIdeal.Tile

end
-- ==== Proof.RefValues.lean ====
/-
  The reference program read index by index: its four results are the attention output and the three parts of the
  fused projection, as the specification states them.

  The reference projects once to 2304 columns, views them as (part, head, offset), takes per (batch, head) the scores
  of every row against every row, normalises them by a softmax along the keys (the maximum taken from -∞, the sum from
  0), weights the value rows, lays the heads back side by side and applies the output weights and the bias.
-/
import proofs.«148277_j16887811408512_2_alg».proof.Proof.Gen.ReferenceIdeal.Read
import proofs.«148277_j16887811408512_2_alg».proof.Proof.AttnSpec

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Attn Idealize.ShloMosaic.ValueIdx

/-- The fused projection. -/
theorem proj_v0 (x0 : (⟨S4x2048x768, .f32⟩ : BufTy).Contents (Elt Ideal)) (x1 : (⟨S2304x768, .f32⟩ : BufTy).Contents (Elt Ideal)) (i : S4x2048x2304.Idx) :
    val_main_v0 (F := Ideal) x0 x1 i = projAt x0 x1 (i 0) (i 1) (i 2) := by
  rw [val_main_v0_apply]
  unfold projAt
  refine Finset.sum_congr rfl fun k _ => ?_
  have el : lidx_main_v0 i k = ix3 (i 0) (i 1) k := funext fun a => by
    match a with | ⟨0, _⟩ => rfl | ⟨1, _⟩ => rfl | ⟨2, _⟩ => rfl
  have er : ridx_main_v0 i k = ix2 (i 2) k := funext fun a => by
    match a with | ⟨0, _⟩ => rfl | ⟨1, _⟩ => rfl
  rw [el, er]
  rfl

/-- The projection viewed as (part, batch, head, row, offset). -/
theorem proj_v2 (x0 : (⟨S4x2048x768, .f32⟩ : BufTy).Contents (Elt Ideal)) (x1 : (⟨S2304x768, .f32⟩ : BufTy).Contents (Elt Ideal)) (i : S3x4x12x2048x64.Idx) :
    val_main_v2 (F := Ideal) x0 x1 i = projAt x0 x1 (i 1) (i 3) (col (i 0) (i 2) (i 4)) := by
  rw [val_main_v2_apply, val_main_v1_apply, proj_v0]
  have h0 : (i 0).val < 3 := (i 0).isLt
  have h1 : (i 1).val < 4 := (i 1).isLt
  have h2 : (i 2).val < 12 := (i 2).isLt
  have h3 : (i 3).val < 2048 := (i 3).isLt
  have h4 : (i 4).val < 64 := (i 4).isLt
  refine projAt_eq x0 x1 ?_ ?_ ?_
  all_goals (simp only [idx_main_v1, idx_main_v2, col, Fin.val_mk, Fin.isValue]; omega)

/-- Part 0 of the projection, split into heads: entry (b, h, n, d) is the projection's column 768·0 + 64h + d. -/
theorem head_v4 (x0 : (⟨S4x2048x768, .f32⟩ : BufTy).Contents (Elt Ideal)) (x1 : (⟨S2304x768, .f32⟩ : BufTy).Contents (Elt Ideal)) (i : S4x12x2048x64.Idx) :
    val_main_v4 (F := Ideal) x0 x1 i = projAt x0 x1 (i 0) (i 2) (col 0 (i 1) (i 3)) := by
  rw [val_main_v4_apply, val_main_v3_apply, proj_v2]
  have h0 : (i 0).val < 4 := (i 0).isLt
  have h1 : (i 1).val < 12 := (i 1).isLt
  have h2 : (i 2).val < 2048 := (i 2).isLt
  have h3 : (i 3).val < 64 := (i 3).isLt
  refine projAt_eq x0 x1 ?_ ?_ ?_
  all_goals (simp only [idx_main_v3, idx_main_v4, col, Fin.val_mk, Fin.isValue]; omega)

/-- Part 1 of the projection, split into heads: entry (b, h, n, d) is the projection's column 768·1 + 64h + d. -/
theorem head_v6 (x0 : (⟨S4x2048x768, .f32⟩ : BufTy).Contents (Elt Ideal)) (x1 : (⟨S2304x768, .f32⟩ : BufTy).Contents (Elt Ideal)) (i : S4x12x2048x64.Idx) :
    val_main_v6 (F := Ideal) x0 x1 i = projAt x0 x1 (i 0) (i 2) (col 1 (i 1) (i 3)) := by
  rw [val_main_v6_apply, val_main_v5_apply, proj_v2]
  have h0 : (i 0).val < 4 := (i 0).isLt
  have h1 : (i 1).val < 12 := (i 1).isLt
  have h2 : (i 2).val < 2048 := (i 2).isLt
  have h3 : (i 3).val < 64 := (i 3).isLt
  refine projAt_eq x0 x1 ?_ ?_ ?_
  all_goals (simp only [idx_main_v5, idx_main_v6, col, Fin.val_mk, Fin.isValue]; omega)

/-- Part 2 of the projection, split into heads: entry (b, h, n, d) is the projection's column 768·2 + 64h + d. -/
theorem head_v8 (x0 : (⟨S4x2048x768, .f32⟩ : BufTy).Contents (Elt Ideal)) (x1 : (⟨S2304x768, .f32⟩ : BufTy).Contents (Elt Ideal)) (i : S4x12x2048x64.Idx) :
    val_main_v8 (F := Ideal) x0 x1 i = projAt x0 x1 (i 0) (i 2) (col 2 (i 1) (i 3)) := by
  rw [val_main_v8_apply, val_main_v7_apply, proj_v2]
  have h0 : (i 0).val < 4 := (i 0).isLt
  have h1 : (i 1).val < 12 := (i 1).isLt
  have h2 : (i 2).val < 2048 := (i 2).isLt
  have h3 : (i 3).val < 64 := (i 3).isLt
  refine projAt_eq x0 x1 ?_ ?_ ?_
  all_goals (simp only [idx_main_v7, idx_main_v8, col, Fin.val_mk, Fin.isValue]; omega)

/-- The scaled scores. -/
theorem scores_v13 (x0 : (⟨S4x2048x768, .f32⟩ : BufTy).Contents (Elt Ideal)) (x1 : (⟨S2304x768, .f32⟩ : BufTy).Contents (Elt Ideal)) (i : S4x12x2048x2048.Idx) :
    val_main_v13 (F := Ideal) x0 x1 i
      = score (fun d => projAt x0 x1 (i 0) (i 2) (col 0 (i 1) d)) (fun d => projAt x0 x1 (i 0) (i 3) (col 1 (i 1) d)) := by
  rw [val_main_v13_apply, val_main_v11_apply, val_main_v12_apply, val_main_cst_apply]
  unfold score
  show (∑ k : Fin 64, _) * Ideal.ofBits .f32 0x3E000000#32 = _
  refine congrArg (· * Ideal.ofBits .f32 0x3E000000#32) (Finset.sum_congr rfl fun k _ => ?_)
  rw [head_v4, head_v6]
  rfl

theorem ix4_eta (i : S4x12x2048x2048.Idx) : ix4 (i 0) (i 1) (i 2) (i 3) = i := (eq_ix4 i).symm

/-- The row maximum (the host takes it from -∞ and then once more against -∞). -/
theorem max_v16 (x0 : (⟨S4x2048x768, .f32⟩ : BufTy).Contents (Elt Ideal)) (x1 : (⟨S2304x768, .f32⟩ : BufTy).Contents (Elt Ideal)) (j : S4x12x2048.Idx) :
    val_main_v16 (F := Ideal) x0 x1 j = ⨆ m : Fin 2048, val_main_v13 (F := Ideal) x0 x1 (ix4 (j 0) (j 1) (j 2) m) := by
  rw [val_main_v16_apply, val_main_v15_apply, val_main_cst_1_apply]
  show max (Ideal.ofBits .f32 0xFF800000#32) (val_main_v14 (F := Ideal) x0 x1 j) = _
  rw [ReduceExtremum.ofBits_negInf_f32, max_eq_right bot_le]
  unfold val_main_v14 val_main_cst_0
  refine (ReduceExtremum.hostReduce_max_single_negInf (val_main_v13 (F := Ideal) x0 x1) reducesTo_S4x12x2048x2048_S4x12x2048_d3
    (by decide) h_S_ j).trans ?_
  exact iSup_congr fun k => congrArg _ (ReduceExtremum.lift_last4 _ j k)

/-- exp of the score less the row maximum. -/
theorem exp_v20 (x0 : (⟨S4x2048x768, .f32⟩ : BufTy).Contents (Elt Ideal)) (x1 : (⟨S2304x768, .f32⟩ : BufTy).Contents (Elt Ideal)) (i : S4x12x2048x2048.Idx) :
    val_main_v20 (F := Ideal) x0 x1 i
      = Ideal.exp (val_main_v13 (F := Ideal) x0 x1 i - ⨆ m : Fin 2048, val_main_v13 (F := Ideal) x0 x1 (ix4 (i 0) (i 1) (i 2) m)) := by
  rw [val_main_v20_apply, val_main_v19_apply, val_main_v18_apply, val_main_v17_apply, max_v16]
  rfl

/-- The row sum of the exponentials (from the zero word). -/
theorem sum_v21 (x0 : (⟨S4x2048x768, .f32⟩ : BufTy).Contents (Elt Ideal)) (x1 : (⟨S2304x768, .f32⟩ : BufTy).Contents (Elt Ideal)) (j : S4x12x2048.Idx) :
    val_main_v21 (F := Ideal) x0 x1 j = ∑ m : Fin 2048, val_main_v20 (F := Ideal) x0 x1 (ix4 (j 0) (j 1) (j 2) m) := by
  rw [val_main_v21_apply, val_main_cst_2_apply]
  show Ideal.ofBits .f32 0x00000000#32 + _ = _
  rw [Ideal.ofBits_zero_f32, zero_add]
  refine Finset.sum_congr rfl fun k _ => congrArg _ (funext fun a => ?_)
  match a with | ⟨0, _⟩ => rfl | ⟨1, _⟩ => rfl | ⟨2, _⟩ => rfl | ⟨3, _⟩ => rfl

/-- The softmax weights. -/
theorem soft_v24 (x0 : (⟨S4x2048x768, .f32⟩ : BufTy).Contents (Elt Ideal)) (x1 : (⟨S2304x768, .f32⟩ : BufTy).Contents (Elt Ideal)) (i : S4x12x2048x2048.Idx) :
    val_main_v24 (F := Ideal) x0 x1 i
      = wt (fun m => val_main_v13 (F := Ideal) x0 x1 (ix4 (i 0) (i 1) (i 2) m)) (i 3) := by
  rw [val_main_v24_apply, val_main_v23_apply, val_main_v22_apply, sum_v21]
  unfold wt
  show Ideal.div (val_main_v20 (F := Ideal) x0 x1 i) _ = _
  rw [exp_v20]
  refine congrArg₂ Ideal.div ?_ (Finset.sum_congr rfl fun m _ => ?_)
  · exact congrArg (fun z => Ideal.exp (z - ⨆ m : Fin 2048, val_main_v13 (F := Ideal) x0 x1 (ix4 (i 0) (i 1) (i 2) m)))
      (congrArg (val_main_v13 (F := Ideal) x0 x1) (eq_ix4 i))
  · rw [exp_v20]; rfl

/-- A head's output entry. -/
theorem head_v25 (x0 : (⟨S4x2048x768, .f32⟩ : BufTy).Contents (Elt Ideal)) (x1 : (⟨S2304x768, .f32⟩ : BufTy).Contents (Elt Ideal)) (i : S4x12x2048x64.Idx) :
    val_main_v25 (F := Ideal) x0 x1 i
      = headAt (fun d => projAt x0 x1 (i 0) (i 2) (col 0 (i 1) d)) (fun m d => projAt x0 x1 (i 0) m (col 1 (i 1) d))
          (fun m => projAt x0 x1 (i 0) m (col 2 (i 1) (i 3))) := by
  rw [val_main_v25_apply]
  unfold headAt
  refine Finset.sum_congr rfl fun m _ => ?_
  rw [soft_v24, head_v8]
  refine congrArg₂ (· * ·) ?_ rfl
  show wt (fun m' => val_main_v13 (F := Ideal) x0 x1 (ix4 (i 0) (i 1) (i 2) m')) m = _
  refine congrArg (fun s => wt s m) (funext fun m' => ?_)
  rw [scores_v13]

/-- The heads laid side by side. -/
theorem cat_v27 (x0 : (⟨S4x2048x768, .f32⟩ : BufTy).Contents (Elt Ideal)) (x1 : (⟨S2304x768, .f32⟩ : BufTy).Contents (Elt Ideal)) (i : S4x2048x768.Idx) :
    val_main_v27 (F := Ideal) x0 x1 i = catAt x0 x1 (i 0) (i 1) (i 2) := by
  rw [val_main_v27_apply, val_main_v26_apply, head_v25]
  unfold catAt
  have h0 : (i 0).val < 4 := (i 0).isLt
  have h1 : (i 1).val < 2048 := (i 1).isLt
  have h2 : (i 2).val < 768 := (i 2).isLt
  have e0 : (idx_main_v26 (idx_main_v27 i) 0 : Fin 4) = i 0 := Fin.ext (by
    simp only [idx_main_v26, idx_main_v27, Fin.val_mk, Fin.isValue]; omega)
  have e2 : (idx_main_v26 (idx_main_v27 i) 2 : Fin 2048) = i 1 := Fin.ext (by
    simp only [idx_main_v26, idx_main_v27, Fin.val_mk, Fin.isValue]; omega)
  have e1 : (idx_main_v26 (idx_main_v27 i) 1 : Fin 12) = headOf (i 2) := Fin.ext (by
    simp only [idx_main_v26, idx_main_v27, headOf, Fin.val_mk, Fin.isValue]; omega)
  have e3 : (idx_main_v26 (idx_main_v27 i) 3 : Fin 64) = offOf (i 2) := Fin.ext (by
    simp only [idx_main_v26, idx_main_v27, offOf, Fin.val_mk, Fin.isValue]; omega)
  rw [e0, e1, e2, e3]

/-- The attention output. -/
theorem out_v31 (x0 : (⟨S4x2048x768, .f32⟩ : BufTy).Contents (Elt Ideal)) (x1 : (⟨S2304x768, .f32⟩ : BufTy).Contents (Elt Ideal)) (x2 : (⟨S768x768, .f32⟩ : BufTy).Contents (Elt Ideal)) (x3 : (⟨S768, .f32⟩ : BufTy).Contents (Elt Ideal)) :
    val_main_v31 (F := Ideal) x0 x1 x2 x3 = outArr x0 x1 x2 x3 := by
  funext i
  rw [val_main_v31_apply, val_main_v28_apply, val_main_v30_apply, val_main_v29_apply]
  unfold outArr outAt
  show (∑ k : Fin 768, _) + _ = _
  refine congrArg₂ (· + ·) (Finset.sum_congr rfl fun k _ => ?_) (congrArg x3 (funext fun a => ?_))
  · rw [cat_v27]
    refine congrArg₂ (· * ·) rfl (congrArg x2 (funext fun a => ?_))
    match a with | ⟨0, _⟩ => rfl | ⟨1, _⟩ => rfl
  · match a with | ⟨0, _⟩ => rfl

/-- The projection viewed as (part, batch, row, column). -/
theorem proj_v10 (x0 : (⟨S4x2048x768, .f32⟩ : BufTy).Contents (Elt Ideal)) (x1 : (⟨S2304x768, .f32⟩ : BufTy).Contents (Elt Ideal)) (i : S3x4x2048x768.Idx) :
    val_main_v10 (F := Ideal) x0 x1 i
      = projAt x0 x1 (i 1) (i 2) ⟨768 * (i 0).val + (i 3).val, by have : (i 0).val < 3 := (i 0).isLt; have : (i 3).val < 768 := (i 3).isLt; omega⟩ := by
  rw [val_main_v10_apply, val_main_v9_apply, proj_v0]
  have h0 : (i 0).val < 3 := (i 0).isLt
  have h1 : (i 1).val < 4 := (i 1).isLt
  have h2 : (i 2).val < 2048 := (i 2).isLt
  have h3 : (i 3).val < 768 := (i 3).isLt
  refine projAt_eq x0 x1 ?_ ?_ ?_
  all_goals (simp only [idx_main_v9, idx_main_v10, Fin.val_mk, Fin.isValue]; omega)

/-- Part 0 of the projection as a [4, 2048, 768] result. -/
theorem part_v33 (x0 : (⟨S4x2048x768, .f32⟩ : BufTy).Contents (Elt Ideal)) (x1 : (⟨S2304x768, .f32⟩ : BufTy).Contents (Elt Ideal)) : val_main_v33 (F := Ideal) x0 x1 = partArr x0 x1 0 := by
  funext i
  rw [val_main_v33_apply, val_main_v32_apply, proj_v10]
  unfold partArr partAt
  have h0 : (i 0).val < 4 := (i 0).isLt
  have h1 : (i 1).val < 2048 := (i 1).isLt
  have h2 : (i 2).val < 768 := (i 2).isLt
  refine projAt_eq x0 x1 ?_ ?_ ?_
  all_goals (simp only [idx_main_v32, idx_main_v33, Fin.val_mk, Fin.isValue]; omega)

/-- Part 1 of the projection as a [4, 2048, 768] result. -/
theorem part_v35 (x0 : (⟨S4x2048x768, .f32⟩ : BufTy).Contents (Elt Ideal)) (x1 : (⟨S2304x768, .f32⟩ : BufTy).Contents (Elt Ideal)) : val_main_v35 (F := Ideal) x0 x1 = partArr x0 x1 1 := by
  funext i
  rw [val_main_v35_apply, val_main_v34_apply, proj_v10]
  unfold partArr partAt
  have h0 : (i 0).val < 4 := (i 0).isLt
  have h1 : (i 1).val < 2048 := (i 1).isLt
  have h2 : (i 2).val < 768 := (i 2).isLt
  refine projAt_eq x0 x1 ?_ ?_ ?_
  all_goals (simp only [idx_main_v34, idx_main_v35, Fin.val_mk, Fin.isValue]; omega)

/-- Part 2 of the projection as a [4, 2048, 768] result. -/
theorem part_v37 (x0 : (⟨S4x2048x768, .f32⟩ : BufTy).Contents (Elt Ideal)) (x1 : (⟨S2304x768, .f32⟩ : BufTy).Contents (Elt Ideal)) : val_main_v37 (F := Ideal) x0 x1 = partArr x0 x1 2 := by
  funext i
  rw [val_main_v37_apply, val_main_v36_apply, proj_v10]
  unfold partArr partAt
  have h0 : (i 0).val < 4 := (i 0).isLt
  have h1 : (i 1).val < 2048 := (i 1).isLt
  have h2 : (i 2).val < 768 := (i 2).isLt
  refine projAt_eq x0 x1 ?_ ?_ ?_
  all_goals (simp only [idx_main_v36, idx_main_v37, Fin.val_mk, Fin.isValue]; omega)

end Cert.ReferenceIdeal.RefValue

end
-- ==== Proof.lean ====
/-
  Multi-head self-attention, fused in one kernel, against its plain jnp reference, over the extended reals.

  Both programs compute, for x [4, 2048, 768], fused weights W [2304, 768], output weights P [768, 768] and bias b:
  the three projections Q, K, V of x by the three 768-row parts of W; per batch and per head of width 64 the scores
  Q·Kᵀ / 8, their softmax along the keys (exp of the score less the row maximum, over the row sum of those), the
  weighted sum of the value rows; the twelve heads side by side times Pᵀ plus b. They return that array and Q, K, V.

  The kernel walks a grid of 4 batches by 8 tiles of 256 query rows. At the first tile of a batch it fills two buffers
  with the batch's K and V (eight blocks of 256 rows each), and every tile of the batch reads them; each tile projects
  its own 256 query rows, runs the twelve heads against the buffers and writes its rows of the four results. The
  reference projects once to all 2304 columns, re-views them as (part, batch, head, row, offset) and works on whole
  [4, 12, 2048, 2048] score arrays. At the ideal instance every step on both sides is the same exact operation on the
  same entries (a product is a sum over the contracted index whatever the tiling; a change of float format is the
  identity; the maximum taken from -∞ is the supremum; the sum taken from the zero word is the sum), so both runs end
  at one function of the arguments, index by index (Proof/AttnSpec.lean). No step moves a factor across a sum or
  cancels, so the finiteness precondition is not used.

  The frames of the two kernel programs are the generated ones; the reference's frame is its generated run with the
  results dropped; the idealization rewrote nothing.
-/
import proofs.«148277_j16887811408512_2_alg».proof.Defs
import proofs.«148277_j16887811408512_2_alg».proof.Proof.Gen.Kernel
import proofs.«148277_j16887811408512_2_alg».proof.Proof.Gen.Kernel.Skeleton
import proofs.«148277_j16887811408512_2_alg».proof.Proof.Gen.Kernel.Launch
import proofs.«148277_j16887811408512_2_alg».proof.Proof.Gen.Kernel.Points
import proofs.«148277_j16887811408512_2_alg».proof.Proof.Gen.Kernel.Frame
import proofs.«148277_j16887811408512_2_alg».proof.Proof.Gen.KernelIdeal
import proofs.«148277_j16887811408512_2_alg».proof.Proof.Gen.KernelIdeal.Skeleton
import proofs.«148277_j16887811408512_2_alg».proof.Proof.Gen.KernelIdeal.Launch
import proofs.«148277_j16887811408512_2_alg».proof.Proof.Gen.KernelIdeal.Points
import proofs.«148277_j16887811408512_2_alg».proof.Proof.Gen.KernelIdeal.Frame
import proofs.«148277_j16887811408512_2_alg».proof.Proof.Gen.ReferenceIdeal
import proofs.«148277_j16887811408512_2_alg».proof.Proof.Gen.Pre_finite_inputs
import proofs.«148277_j16887811408512_2_alg».proof.Proof.Gen.KernelIdeal.Value
import proofs.«148277_j16887811408512_2_alg».proof.Proof.Gen.ReferenceIdeal.Run
import proofs.«148277_j16887811408512_2_alg».proof.Proof.Gen.ReferenceIdeal.Read
import proofs.«148277_j16887811408512_2_alg».proof.Proof.KernelRun
import proofs.«148277_j16887811408512_2_alg».proof.Proof.RefValues
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both runs end at the specification of arguments that agree. -/
theorem algebraic : Cert.algebraic_KernelIdeal_ReferenceIdeal := by
  intro m ρ m' ρ' _ hagree
  refine ⟨_, _, _, _, Cert.KernelIdeal.Tile.run m ρ, ?_⟩
  refine (θ_run Cert.ReferenceIdeal.defs _ _).mono (fun _ h c => ?_) (Cert.ReferenceIdeal.Value.run (F := Ideal) m' ρ')
  obtain ⟨h31, h33, h35, h37, hargs⟩ := h c
  obtain ⟨a0, a1, a2, a3⟩ := hagree c
  refine ⟨h31.trans ?_, h33.trans ?_, h35.trans ?_, h37.trans ?_, hargs⟩
  · rw [Cert.ReferenceIdeal.Read.val_main_v31_eq, Cert.ReferenceIdeal.RefValue.out_v31, a0, a1, a2, a3]
  · rw [Cert.ReferenceIdeal.Read.val_main_v33_eq, Cert.ReferenceIdeal.RefValue.part_v33, a0, a1]
  · rw [Cert.ReferenceIdeal.Read.val_main_v35_eq, Cert.ReferenceIdeal.RefValue.part_v35, a0, a1]
  · rw [Cert.ReferenceIdeal.Read.val_main_v37_eq, Cert.ReferenceIdeal.RefValue.part_v37, a0, a1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
